-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S256x129 : S_.BroadcastsInDim S256x129 (![] : Fin 0 → Fin S256x129.rank)
  reducesTo_S256x129_S_d0_1 : S256x129.ReducesTo [0, 1] S_
  bcast_S_S256 : S_.BroadcastsInDim S256 (![] : Fin 0 → Fin S256.rank)
  reducesTo_S256_S_d0 : S256.ReducesTo [0] S_
  bcast_S_S256x257 : S_.BroadcastsInDim S256x257 (![] : Fin 0 → Fin S256x257.rank)
  reducesTo_S256x257_S_d0_1 : S256x257.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S256x256 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg17
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v48 : IVec S_ 1) (main_v49 : FVec F S256x257 .f32) (main_v50 : FVec F S256x257 .f32) : IVec S_ 1 :=
  let main_v51 : IVec S256x257 1 := cmpf .olt main_v49 main_v50
  let main_c_19 : IVec S_ 1 := constantI S_ 1 1#1
  let main_v52 : IVec S_ 1 := (fun x v => Host.reduce IntOp.andi x v reducesTo_S256x257_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x257 .f32 := Host.absf main_arg13
  let main_cst_22 : FVec F S_ .f32 := constant S_ .f32 0x7F800000#32
  let main_v60 : FVec F S256x257 .f32 := broadcastInDim S256x257 ![] bcast_S_S256x257 main_cst_22
  let main_v61 : IVec S256x257 1 := cmpf .olt main_v59 main_v60
  let main_c_23 : IVec S_ 1 := constantI S_ 1 1#1
  let main_v62 : IVec S_ 1 := (fun x v => Host.reduce IntOp.andi x v reducesTo_S256x257_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_v63 main_v67

def fn_part2 {F : FTy → Type} [FloatOps F] (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x257 .f32 := Host.absf main_arg9
  let main_cst_14 : FVec F S_ .f32 := constant S_ .f32 0x7F800000#32
  let main_v40 : FVec F S256x257 .f32 := broadcastInDim S256x257 ![] bcast_S_S256x257 main_cst_14
  let main_v41 : IVec S256x257 1 := cmpf .olt main_v39 main_v40
  let main_c_15 : IVec S_ 1 := constantI S_ 1 1#1
  let main_v42 : IVec S_ 1 := (fun x v => Host.reduce IntOp.andi x v reducesTo_S256x257_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x257 .f32 := Host.absf main_arg11
  let main_cst_18 : FVec F S_ .f32 := constant S_ .f32 0x7F800000#32
  let main_v50 : FVec F S256x257 .f32 := broadcastInDim S256x257 ![] bcast_S_S256x257 main_cst_18
  fn_part3 (F := F) main_arg12 main_arg13 main_arg14 main_arg15 main_arg16 main_arg17 main_arg18 main_v48 main_v49 main_v50

def fn_part1 {F : FTy → Type} [FloatOps F] (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x257 .f32 := Host.absf main_arg5
  let main_cst_6 : FVec F S_ .f32 := constant S_ .f32 0x7F800000#32
  let main_v20 : FVec F S256x257 .f32 := broadcastInDim S256x257 ![] bcast_S_S256x257 main_cst_6
  let main_v21 : IVec S256x257 1 := cmpf .olt main_v19 main_v20
  let main_c_7 : IVec S_ 1 := constantI S_ 1 1#1
  let main_v22 : IVec S_ 1 := (fun x v => Host.reduce IntOp.andi x v reducesTo_S256x257_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x257 .f32 := Host.absf main_arg7
  let main_cst_10 : FVec F S_ .f32 := constant S_ .f32 0x7F800000#32
  let main_v30 : FVec F S256x257 .f32 := broadcastInDim S256x257 ![] bcast_S_S256x257 main_cst_10
  let main_v31 : IVec S256x257 1 := cmpf .olt main_v29 main_v30
  let main_c_11 : IVec S_ 1 := constantI S_ 1 1#1
  let main_v32 : IVec S_ 1 := (fun x v => Host.reduce IntOp.andi x v reducesTo_S256x257_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : FVec F S3200000x1 .f32) (main_arg2 : IVec S3200000 32) (main_arg3 : FVec F S256x129 .f32) (main_arg4 : FVec F S256 .f32) (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S256x129 .f32 := Host.absf main_arg3
  let main_cst_2 : FVec F S_ .f32 := constant S_ .f32 0x7F800000#32
  let main_v10 : FVec F S256x129 .f32 := broadcastInDim S256x129 ![] bcast_S_S256x129 main_cst_2
  let main_v11 : IVec S256x129 1 := cmpf .olt main_v9 main_v10
  let main_c_3 : IVec S_ 1 := constantI S_ 1 1#1
  let main_v12 : IVec S_ 1 := (fun x v => Host.reduce IntOp.andi x v reducesTo_S256x129_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩
abbrev S100000x1 : Shape := ⟨2, ![100000, 1]⟩
abbrev S256x128 : Shape := ⟨2, ![256, 128]⟩
abbrev S256x1 : Shape := ⟨2, ![256, 1]⟩
abbrev S128x256 : Shape := ⟨2, ![128, 256]⟩
abbrev S128 : Shape := ⟨1, ![128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 83
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S3200000x1, .f32⟩
  | .hbm, ⟨2, _⟩ => ⟨S3200000, .i32⟩
  | .hbm, ⟨3, _⟩ => ⟨S256x129, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x257, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S_, .f32⟩
  | .hbm, ⟨20, _⟩ => ⟨S100000x1, .f32⟩
  | .hbm, ⟨21, _⟩ => ⟨S3200000x1, .i32⟩
  | .hbm, ⟨22, _⟩ => ⟨S100000x1, .f32⟩
  | .hbm, ⟨23, _⟩ => ⟨S256x128, .f32⟩
  | .hbm, ⟨24, _⟩ => ⟨S256x1, .f32⟩
  | .hbm, ⟨25, _⟩ => ⟨S256, .f32⟩
  | .hbm, ⟨26, _⟩ => ⟨S128x256, .f32⟩
  | .hbm, ⟨27, _⟩ => ⟨S128x256, .bf16⟩
  | .hbm, ⟨28, _⟩ => ⟨S1x256, .f32⟩
  | .hbm, ⟨29, _⟩ => ⟨S1x256, .f32⟩
  | .hbm, ⟨30, _⟩ => ⟨S256x256, .f32⟩
  | .hbm, ⟨31, _⟩ => ⟨S256x1, .f32⟩
  | .hbm, ⟨32, _⟩ => ⟨S256, .f32⟩
  | .hbm, ⟨33, _⟩ => ⟨S256x256, .f32⟩
  | .hbm, ⟨34, _⟩ => ⟨S256x256, .bf16⟩
  | .hbm, ⟨35, _⟩ => ⟨S1x256, .f32⟩
  | .hbm, ⟨36, _⟩ => ⟨S1x256, .f32⟩
  | .hbm, ⟨37, _⟩ => ⟨S256x256, .f32⟩
  | .hbm, ⟨38, _⟩ => ⟨S256x1, .f32⟩
  | .hbm, ⟨39, _⟩ => ⟨S256, .f32⟩
  | .hbm, ⟨40, _⟩ => ⟨S256x256, .f32⟩
  | .hbm, ⟨41, _⟩ => ⟨S256x256, .bf16⟩
  | .hbm, ⟨42, _⟩ => ⟨S1x256, .f32⟩
  | .hbm, ⟨43, _⟩ => ⟨S1x256, .f32⟩
  | .hbm, ⟨44, _⟩ => ⟨S256x256, .f32⟩
  | .hbm, ⟨45, _⟩ => ⟨S256x1, .f32⟩
  | .hbm, ⟨46, _⟩ => ⟨S256, .f32⟩
  | .hbm, ⟨47, _⟩ => ⟨S256x256, .f32⟩
  | .hbm, ⟨48, _⟩ => ⟨S256x256, .bf16⟩
  | .hbm, ⟨49, _⟩ => ⟨S1x256, .f32⟩
  | .hbm, ⟨50, _⟩ => ⟨S1x256, .f32⟩
  | .hbm, ⟨51, _⟩ => ⟨S256x256, .f32⟩
  | .hbm, ⟨52, _⟩ => ⟨S256x1, .f32⟩
  | .hbm, ⟨53, _⟩ => ⟨S256, .f32⟩
  | .hbm, ⟨54, _⟩ => ⟨S256x256, .f32⟩
  | .hbm, ⟨55, _⟩ => ⟨S256x256, .bf16⟩
  | .hbm, ⟨56, _⟩ => ⟨S1x256, .f32⟩
  | .hbm, ⟨57, _⟩ => ⟨S1x256, .f32⟩
  | .hbm, ⟨58, _⟩ => ⟨S256x256, .f32⟩
  | .hbm, ⟨59, _⟩ => ⟨S256x1, .f32⟩
  | .hbm, ⟨60, _⟩ => ⟨S256, .f32⟩
  | .hbm, ⟨61, _⟩ => ⟨S256x256, .f32⟩
  | .hbm, ⟨62, _⟩ => ⟨S256x256, .bf16⟩
  | .hbm, ⟨63, _⟩ => ⟨S1x256, .f32⟩
  | .hbm, ⟨64, _⟩ => ⟨S1x256, .f32⟩
  | .hbm, ⟨65, _⟩ => ⟨S256x256, .f32⟩
  | .hbm, ⟨66, _⟩ => ⟨S256x256, .bf16⟩
  | .hbm, ⟨67, _⟩ => ⟨S1x256, .f32⟩
  | .hbm, ⟨68, _⟩ => ⟨S_, .f32⟩
  | .hbm, ⟨69, _⟩ => ⟨S128x256, .f32⟩
  | .hbm, ⟨70, _⟩ => ⟨S_, .i32⟩
  | .hbm, ⟨71, _⟩ => ⟨S1, .i32⟩
  | .hbm, ⟨72, _⟩ => ⟨S128x256, .f32⟩
  | .hbm, ⟨73, _⟩ => ⟨S_, .f32⟩
  | .hbm, ⟨74, _⟩ => ⟨S128, .f32⟩
  | .hbm, ⟨75, _⟩ => ⟨S_, .i32⟩
  | .hbm, ⟨76, _⟩ => ⟨S1, .i32⟩
  | .hbm, ⟨77, _⟩ => ⟨S128, .f32⟩
  | .hbm, ⟨78, _⟩ => ⟨S256x128, .f32⟩
  | .hbm, ⟨79, _⟩ => ⟨S256x128, .bf16⟩
  | .hbm, ⟨80, _⟩ => ⟨S1x128, .f32⟩
  | .hbm, ⟨81, _⟩ => ⟨S100000x128, .f32⟩
  | .hbm, ⟨82, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S256x128, .bf16⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_0 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_v50 : Ref sig .tc := ⟨.hbm, 72, rfl⟩
abbrev main_cst_1 : Ref sig .tc := ⟨.hbm, 73, rfl⟩
abbrev main_v51 : Ref sig .tc := ⟨.hbm, 74, rfl⟩
abbrev main_c_2 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S5000x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  slices_S256x129_S256x128_0_0 : S256x129.Slices ![0, 0] S256x128
  slices_S256x129_S256x1_0_128 : S256x129.Slices ![0, 128] S256x1
  shapeCasts_S256x1_S256 : S256x1.ShapeCasts S256
  transposes_S256x128_S128x256_1_0 : S256x128.Transposes [1, 0] S128x256
  bitsLt_bf16_f32 : FTy.bits .bf16 < FTy.bits .f32
  shapeCasts_S256_S1x256 : S256.ShapeCasts S1x256
  slices_S256x257_S256x256_0_0 : S256x257.Slices ![0, 0] S256x256
  slices_S256x257_S256x1_0_256 : S256x257.Slices ![0, 256] S256x1
  transposes_S256x256_S256x256_1_0 : S256x256.Transposes [1, 0] S256x256
  bcast_S_S128x256 : S_.BroadcastsInDim S128x256 (![] : Fin 0 → Fin S128x256.rank)
  bcast_S_S1 : S_.BroadcastsInDim S1 (![] : Fin 0 → Fin S1.rank)
  bcast_S_S128 : S_.BroadcastsInDim S128 (![] : Fin 0 → Fin S128.rank)
  transposes_S128x256_S256x128_1_0 : S128x256.Transposes [1, 0] S256x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S5000x1_S5000x256 : S5000x1.Broadcasts S5000x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S100000x1_0_0 : S100000x128.Slices ![0, 0] S100000x1
  scatter_S100000x1_S3200000x1_S3200000x1_1_0_0_1_wf : ScatterDims.WF S100000x1 S3200000x1 S3200000x1 [1] [0] [0] 1
  scatter_S128x256_S1_S1x256_01_n_0_0_wf : ScatterDims.WF S128x256 S1 S1x256 [0, 1] [] [0] 0
  scatter_S128_S1_S1_0_n_0_0_wf : ScatterDims.WF S128 S1 S1 [0] [] [0] 0
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x128.size a ≤ S256x128.size a
  hwx0_22 : ∀ i : grid0.Coords, EltTy.bits .bf16 = 32 ∨ (Rect.block (s := S256x128) S256x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x128.size a ≤ S1x128.size a
  hwx0_23 : ∀ i : grid0.Coords, EltTy.bits .f32 = 32 ∨ (Rect.block (s := S1x128) S1x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S5000x128.size a ≤ S100000x128.size a
  hwx0_24 : ∀ i : grid0.Coords, EltTy.bits .f32 = 32 ∨ (Rect.block (s := S100000x128) S5000x128.size (cc0_transform_24 i) (hinb0_24 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def scatter_S128x256_S1_S1x256_01_n_0_0 : ScatterDims S128x256 S1 S1x256 where
  updateWindowDims := [0, 1]
  insertedWindowDims := []
  scatterDimsToOperandDims := [0]
  indexVectorDim := 0
  wf := scatter_S128x256_S1_S1x256_01_n_0_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v42) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v43) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v44) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v46) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v47) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v55) S256x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v56) S1x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v57) S5000x128.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩
abbrev S100000x1 : Shape := ⟨2, ![100000, 1]⟩
abbrev S100000x129 : Shape := ⟨2, ![100000, 129]⟩
abbrev S129x256 : Shape := ⟨2, ![129, 256]⟩
abbrev S100000x256 : Shape := ⟨2, ![100000, 256]⟩
abbrev S100000x257 : Shape := ⟨2, ![100000, 257]⟩
abbrev S257x256 : Shape := ⟨2, ![257, 256]⟩
abbrev S256x1 : Shape := ⟨2, ![256, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000x1, .f32⟩
  | .hbm, ⟨2, _⟩ => ⟨S3200000, .i32⟩
  | .hbm, ⟨3, _⟩ => ⟨S256x129, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x257, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S_, .f32⟩
  | .hbm, ⟨20, _⟩ => ⟨S100000x1, .f32⟩
  | .hbm, ⟨21, _⟩ => ⟨S3200000x1, .i32⟩
  | .hbm, ⟨22, _⟩ => ⟨S100000x1, .f32⟩
  | .hbm, ⟨23, _⟩ => ⟨S100000x129, .f32⟩
  | .hbm, ⟨24, _⟩ => ⟨S129x256, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x257, .f32⟩
  | .hbm, ⟨33, _⟩ => ⟨S257x256, .f32⟩
  | .hbm, ⟨34, _⟩ => ⟨S100000x256, .f32⟩
  | .hbm, ⟨35, _⟩ => ⟨S1x256, .f32⟩
  | .hbm, ⟨36, _⟩ => ⟨S100000x256, .f32⟩
  | .hbm, ⟨37, _⟩ => ⟨S100000x256, .f32⟩
  | .hbm, ⟨38, _⟩ => ⟨S_, .f32⟩
  | .hbm, ⟨39, _⟩ => ⟨S100000x256, .f32⟩
  | .hbm, ⟨40, _⟩ => ⟨S100000x256, .f32⟩
  | .hbm, ⟨41, _⟩ => ⟨S100000x257, .f32⟩
  | .hbm, ⟨42, _⟩ => ⟨S257x256, .f32⟩
  | .hbm, ⟨43, _⟩ => ⟨S100000x256, .f32⟩
  | .hbm, ⟨44, _⟩ => ⟨S1x256, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x257, .f32⟩
  | .hbm, ⟨51, _⟩ => ⟨S257x256, .f32⟩
  | .hbm, ⟨52, _⟩ => ⟨S100000x256, .f32⟩
  | .hbm, ⟨53, _⟩ => ⟨S1x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S100000x256, .f32⟩
  | .hbm, ⟨58, _⟩ => ⟨S100000x256, .f32⟩
  | .hbm, ⟨59, _⟩ => ⟨S100000x257, .f32⟩
  | .hbm, ⟨60, _⟩ => ⟨S257x256, .f32⟩
  | .hbm, ⟨61, _⟩ => ⟨S100000x256, .f32⟩
  | .hbm, ⟨62, _⟩ => ⟨S1x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S100000x256, .f32⟩
  | .hbm, ⟨67, _⟩ => ⟨S100000x256, .f32⟩
  | .hbm, ⟨68, _⟩ => ⟨S100000x257, .f32⟩
  | .hbm, ⟨69, _⟩ => ⟨S257x256, .f32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S_, .f32⟩
  | .hbm, ⟨75, _⟩ => ⟨S100000x256, .f32⟩
  | .hbm, ⟨76, _⟩ => ⟨S100000x256, .f32⟩
  | .hbm, ⟨77, _⟩ => ⟨S256x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S100000x256, .f32⟩
  | .hbm, ⟨84, _⟩ => ⟨S100000x256, .f32⟩
  | .hbm, ⟨85, _⟩ => ⟨S256x1, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_cst : Ref sig .tc := ⟨.hbm, 29, rfl⟩
abbrev main_call0_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_cst : Ref sig .tc := ⟨.hbm, 38, rfl⟩
abbrev main_call1_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_cst : Ref sig .tc := ⟨.hbm, 56, rfl⟩
abbrev main_call3_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call4_cst : Ref sig .tc := ⟨.hbm, 65, rfl⟩
abbrev main_call4_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call5_cst : Ref sig .tc := ⟨.hbm, 74, rfl⟩
abbrev main_call5_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call6_cst : Ref sig .tc := ⟨.hbm, 82, rfl⟩
abbrev main_call6_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  concatenates_S100000x128_S100000x1_S100000x129_d1 : Shape.Concatenates [S100000x128, S100000x1] S100000x129 1
  transposes_S256x129_S129x256_1_0 : S256x129.Transposes [1, 0] S129x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  concatenates_S100000x256_S100000x1_S100000x257_d1 : Shape.Concatenates [S100000x256, S100000x1] S100000x257 1
  transposes_S256x257_S257x256_1_0 : S256x257.Transposes [1, 0] S257x256
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000x1_S3200000x1_S3200000x1_1_0_0_1_wf : ScatterDims.WF S100000x1 S3200000x1 S3200000x1 [1] [0] [0] 1
  dot_S100000x129_S129x256_S100000x256_1_0_0_1_n_n_wf : DotDims.WF S100000x129 S129x256 S100000x256 [1] [0] [0] [1] [] []
  dot_S100000x257_S257x256_S100000x256_1_0_0_1_n_n_wf : DotDims.WF S100000x257 S257x256 S100000x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x129_S129x256_S100000x256_1_0_0_1_n_n : DotDims S100000x129 S129x256 S100000x256 where
  lhsContracting := [1]
  rhsContracting := [0]
  lhsNonContracting := [0]
  rhsNonContracting := [1]
  lhsBatch := []
  rhsBatch := []
  wf := dot_S100000x129_S129x256_S100000x256_1_0_0_1_n_n_wf
def dot_S100000x257_S257x256_S100000x256_1_0_0_1_n_n : DotDims S100000x257 S257x256 S100000x256 where
  lhsContracting := [1]
  rhsContracting := [0]
  lhsNonContracting := [0]
  rhsNonContracting := [1]
  lhsBatch := []
  rhsBatch := []
  wf := dot_S100000x257_S257x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.SageSpec.lean ====
/- The graph network of this certificate, row by row.

   Every node (row) is treated alike and independently: the result at a node is a function of that node's
   feature row `x`, of the one aggregated edge value `a` of the node, and of the weights. A layer of the first
   six maps a row `h` of width `d` to the row `j ↦ max (⟨(h, a), W j⟩ + b j) 0` of width 256, where `W j` has
   `d + 1` entries, the last multiplying `a`. The layer is written twice: JOINED, one sum over the `d + 1`
   entries of `(h, a)`, and SPLIT, the sum over the first `d` entries plus the last product. The two are equal
   by splitting off the last term of a finite sum; extended-real addition is a commutative monoid, so no
   finiteness is involved. -/
import Idealize.ShloMosaic.PureOps.Ideal
import Idealize.ShloMosaic.PureOps.Ideal.Laws
import Idealize.ShloMosaic.Lib.ValueIdx

noncomputable section

namespace Cert.SageSpec

open Idealize.ShloMosaic

/-- The zero the rectifier compares with, as the word both programs print. -/
abbrev z32 : EReal := Ideal.ofBits .f32 0x00000000#32

/-- A layer, SPLIT: `wt k j` multiplies entry `k` of the row, `wc j` multiplies the aggregated value. -/
def splitLayer {d : ℕ} (wt : Fin d → Fin 256 → EReal) (wc b : Fin 256 → EReal) (a : EReal) (h : Fin d → EReal) :
    Fin 256 → EReal :=
  fun j => max (((∑ k : Fin d, h k * wt k j) + a * wc j) + b j) z32

/-- A layer, JOINED: one sum over the `d + 1` entries of the row followed by the aggregated value. -/
def joinedLayer {d : ℕ} (w : Fin 256 → Fin (d + 1) → EReal) (b : Fin 256 → EReal) (a : EReal) (h : Fin d → EReal) :
    Fin 256 → EReal :=
  fun j => max ((∑ k : Fin (d + 1), (Fin.lastCases a h k : EReal) * w j k) + b j) z32

/-- The last term of the joined sum is the aggregated value's product; the others are the row's. -/
theorem joinedLayer_eq_splitLayer {d : ℕ} (w : Fin 256 → Fin (d + 1) → EReal) (b : Fin 256 → EReal) (a : EReal)
    (h : Fin d → EReal) :
    joinedLayer w b a h = splitLayer (fun k j => w j k.castSucc) (fun j => w j (Fin.last d)) b a h := by
  funext j
  unfold joinedLayer splitLayer
  rw [Fin.sum_univ_castSucc]
  simp only [Fin.lastCases_castSucc, Fin.lastCases_last]

/-- A plain layer with the rectifier: `j ↦ max (⟨h, W j⟩ + b j) 0`, `wt k j` multiplying entry `k`. -/
def denseLayer (wt : Fin 256 → Fin 256 → EReal) (b : Fin 256 → EReal) (h : Fin 256 → EReal) : Fin 256 → EReal :=
  fun j => max ((∑ k : Fin 256, h k * wt k j) + b j) z32

/-- The last, linear map, to `n` outputs: `q ↦ ⟨h, W q⟩ + b q`. -/
def headLayer {n : ℕ} (wt : Fin 256 → Fin n → EReal) (b : Fin n → EReal) (h : Fin 256 → EReal) : Fin n → EReal :=
  fun q => (∑ k : Fin 256, h k * wt k q) + b q

/-- The weights as the SPLIT network reads them. -/
structure SplitW (n : ℕ) where
  wt1 : Fin 128 → Fin 256 → EReal
  wc1 : Fin 256 → EReal
  b1 : Fin 256 → EReal
  wt2 : Fin 256 → Fin 256 → EReal
  wc2 : Fin 256 → EReal
  b2 : Fin 256 → EReal
  wt3 : Fin 256 → Fin 256 → EReal
  wc3 : Fin 256 → EReal
  b3 : Fin 256 → EReal
  wt4 : Fin 256 → Fin 256 → EReal
  wc4 : Fin 256 → EReal
  b4 : Fin 256 → EReal
  wt5 : Fin 256 → Fin 256 → EReal
  wc5 : Fin 256 → EReal
  b5 : Fin 256 → EReal
  wt6 : Fin 256 → Fin 256 → EReal
  wc6 : Fin 256 → EReal
  b6 : Fin 256 → EReal
  wt7 : Fin 256 → Fin 256 → EReal
  b7 : Fin 256 → EReal
  wt8 : Fin 256 → Fin n → EReal
  b8 : Fin n → EReal

/-- The whole network on one row, SPLIT form, with `n` outputs. -/
def splitNet {n : ℕ} (W : SplitW n) (a : EReal) (x : Fin 128 → EReal) : Fin n → EReal :=
  headLayer W.wt8 W.b8 (denseLayer W.wt7 W.b7 (splitLayer W.wt6 W.wc6 W.b6 a (splitLayer W.wt5 W.wc5 W.b5 a
    (splitLayer W.wt4 W.wc4 W.b4 a (splitLayer W.wt3 W.wc3 W.b3 a (splitLayer W.wt2 W.wc2 W.b2 a
      (splitLayer W.wt1 W.wc1 W.b1 a x)))))))

/-- The weights as the JOINED network reads them: each matrix by output then input, as the arguments hold them. -/
structure JoinedW where
  w1 : Fin 256 → Fin 129 → EReal
  b1 : Fin 256 → EReal
  w2 : Fin 256 → Fin 257 → EReal
  b2 : Fin 256 → EReal
  w3 : Fin 256 → Fin 257 → EReal
  b3 : Fin 256 → EReal
  w4 : Fin 256 → Fin 257 → EReal
  b4 : Fin 256 → EReal
  w5 : Fin 256 → Fin 257 → EReal
  b5 : Fin 256 → EReal
  w6 : Fin 256 → Fin 257 → EReal
  b6 : Fin 256 → EReal
  w7 : Fin 256 → Fin 256 → EReal
  b7 : Fin 256 → EReal
  w8 : Fin 1 → Fin 256 → EReal
  b8 : Fin 1 → EReal

/-- The whole network on one row, JOINED form: its one output. -/
def joinedNet (W : JoinedW) (a : EReal) (x : Fin 128 → EReal) : EReal :=
  headLayer (fun k q => W.w8 q k) W.b8 (denseLayer (fun k j => W.w7 j k) W.b7 (joinedLayer W.w6 W.b6 a
    (joinedLayer W.w5 W.b5 a (joinedLayer W.w4 W.b4 a (joinedLayer W.w3 W.b3 a (joinedLayer W.w2 W.b2 a
      (joinedLayer W.w1 W.b1 a x))))))) 0

/-- The split reading of joined weights, with a last layer of `n` outputs of which output 0 is the real one. -/
def JoinedW.split (W : JoinedW) (n : ℕ) (wt8 : Fin 256 → Fin n → EReal) (b8 : Fin n → EReal) : SplitW n where
  wt1 := fun k j => W.w1 j k.castSucc
  wc1 := fun j => W.w1 j (Fin.last 128)
  b1 := W.b1
  wt2 := fun k j => W.w2 j k.castSucc
  wc2 := fun j => W.w2 j (Fin.last 256)
  b2 := W.b2
  wt3 := fun k j => W.w3 j k.castSucc
  wc3 := fun j => W.w3 j (Fin.last 256)
  b3 := W.b3
  wt4 := fun k j => W.w4 j k.castSucc
  wc4 := fun j => W.w4 j (Fin.last 256)
  b4 := W.b4
  wt5 := fun k j => W.w5 j k.castSucc
  wc5 := fun j => W.w5 j (Fin.last 256)
  b5 := W.b5
  wt6 := fun k j => W.w6 j k.castSucc
  wc6 := fun j => W.w6 j (Fin.last 256)
  b6 := W.b6
  wt7 := fun k j => W.w7 j k
  b7 := W.b7
  wt8 := wt8
  b8 := b8

/-- THE LAW: the split network over the split reading of the weights, padded to `n` outputs whose column 0
    is the real last layer, has the joined network's value at output 0. -/
theorem splitNet_eq_joinedNet (W : JoinedW) (n : ℕ) (hn : 0 < n) (wt8 : Fin 256 → Fin n → EReal) (b8 : Fin n → EReal)
    (hw : ∀ k, wt8 k ⟨0, hn⟩ = W.w8 0 k) (hb : b8 ⟨0, hn⟩ = W.b8 0) (a : EReal) (x : Fin 128 → EReal) :
    splitNet (W.split n wt8 b8) a x ⟨0, hn⟩ = joinedNet W a x := by
  unfold splitNet joinedNet JoinedW.split
  simp only [joinedLayer_eq_splitLayer]
  unfold headLayer
  simp only [hw, hb]

end Cert.SageSpec

end
-- ==== Proof.KernelOps.lean ====
/- The kernel body's vector operations read at one entry `(p, j)` of a block, at the ideal instance.

   A matrix product into a zero accumulator is the sum over the contracted axis of the products of the left
   operand's row `p` and the right operand's column `j`; a column `[a, 1]` broadcast to `[a, b]` reads its row's
   one entry; a row `[1, b]` broadcast to `[a, b]` reads its column's entry. -/
import proofs.«160156_j76192719831691_2_alg».proof.KernelIdeal
import proofs.«160156_j76192719831691_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelOps

open Cert.KernelIdeal Idealize.ShloMosaic Idealize.ShloMosaic.ValueIdx

/-- A column broadcast along the second axis: entry `(p, c)` is the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product of a `[M, K]` by a `[K, N]` matrix into zeros, contracting the one shared axis, read at `(p, j)`:
    the sum over `k` of the left operand at `(p, k)` times the right operand at `(k, j)`. The four hypotheses
    say which coordinates of the operands the dimension numbers take from the result index and which from
    the contraction index. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (X : FVec Ideal ⟨2, ![M, K]⟩ φ₁) (W : FVec Ideal ⟨2, ![K, N]⟩ φ₂)
    (p : Fin M) (j : Fin N) :
    matmul D prec X W (constant ⟨2, ![M, N]⟩ .f32 0x00000000#32) (ix2 p j)
      = ∑ k : Fin K, X (ix2 p k) * W (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

theorem mm128_apply {φ₁ φ₂ : FTy} (X : FVec Ideal S5000x128 φ₁) (W : FVec Ideal S128x256 φ₂) (p : Fin 5000) (j : Fin 256) :
    matmul dot_S5000x128_S128x256_S5000x256_1_0_0_1_n_n none X W (constant S5000x256 .f32 0x00000000#32) (ix2 p j)
      = ∑ k : Fin 128, X (ix2 p k) * W (ix2 k j) := by
  refine matmul2_apply dot_S5000x128_S128x256_S5000x256_1_0_0_1_n_n rfl rfl (fun i q => ?_) (fun i q => ?_) (fun i q => ?_) (fun i q => ?_) none X W p j
  · unfold DotDims.lhsIdx
    rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
    rfl
  · exact dot_S5000x128_S128x256_S5000x256_1_0_0_1_n_n.lhsIdx_val_of_single rfl i q
  · exact dot_S5000x128_S128x256_S5000x256_1_0_0_1_n_n.rhsIdx_val_of_single rfl i q
  · unfold DotDims.rhsIdx
    rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
    rfl

theorem mm256_apply {φ₁ φ₂ : FTy} (X : FVec Ideal S5000x256 φ₁) (W : FVec Ideal S256x256 φ₂) (p : Fin 5000) (j : Fin 256) :
    matmul dot_S5000x256_S256x256_S5000x256_1_0_0_1_n_n none X W (constant S5000x256 .f32 0x00000000#32) (ix2 p j)
      = ∑ k : Fin 256, X (ix2 p k) * W (ix2 k j) := by
  refine matmul2_apply dot_S5000x256_S256x256_S5000x256_1_0_0_1_n_n rfl rfl (fun i q => ?_) (fun i q => ?_) (fun i q => ?_) (fun i q => ?_) none X W p j
  · unfold DotDims.lhsIdx
    rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
    rfl
  · exact dot_S5000x256_S256x256_S5000x256_1_0_0_1_n_n.lhsIdx_val_of_single rfl i q
  · exact dot_S5000x256_S256x256_S5000x256_1_0_0_1_n_n.rhsIdx_val_of_single rfl i q
  · unfold DotDims.rhsIdx
    rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
    rfl

theorem mmOut_apply {φ₁ φ₂ : FTy} (X : FVec Ideal S5000x256 φ₁) (W : FVec Ideal S256x128 φ₂) (p : Fin 5000) (j : Fin 128) :
    matmul dot_S5000x256_S256x128_S5000x128_1_0_0_1_n_n none X W (constant S5000x128 .f32 0x00000000#32) (ix2 p j)
      = ∑ k : Fin 256, X (ix2 p k) * W (ix2 k j) := by
  refine matmul2_apply dot_S5000x256_S256x128_S5000x128_1_0_0_1_n_n rfl rfl (fun i q => ?_) (fun i q => ?_) (fun i q => ?_) (fun i q => ?_) none X W p j
  · unfold DotDims.lhsIdx
    rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
    rfl
  · exact dot_S5000x256_S256x128_S5000x128_1_0_0_1_n_n.lhsIdx_val_of_single rfl i q
  · exact dot_S5000x256_S256x128_S5000x128_1_0_0_1_n_n.rhsIdx_val_of_single rfl i q
  · unfold DotDims.rhsIdx
    rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
    rfl

end Cert.KernelOps

end
-- ==== Proof.KernelPayload.lean ====
/- The kernel body's stored value at one entry `(p, q)` of its output block, at the ideal instance: the split
   network (SageSpec) of row `p` of the node-feature block, of entry `p` of the aggregated column, and of the
   weight blocks. The body is eight matrix products chained through rectifiers; since every product contracts
   the feature axis only, entry `(p, j)` of each intermediate block depends on row `p` of the previous one alone. -/
import proofs.«160156_j76192719831691_2_alg».proof.Proof.Gen.KernelIdeal.Skeleton
import proofs.«160156_j76192719831691_2_alg».proof.Proof.SageSpec
import proofs.«160156_j76192719831691_2_alg».proof.Proof.KernelOps

noncomputable section

namespace Cert.KernelPayload

open Cert.KernelIdeal Cert.KernelIdeal.Gen Idealize.ShloMosaic Idealize.ShloMosaic.ValueIdx Cert.SageSpec Cert.KernelOps

/-- The weight blocks as the split network reads them. -/
def blockW (x2 : Vec Ideal S128x256 .bf16) (x3 : Vec Ideal S1x256 .f32) (x4 : Vec Ideal S1x256 .f32) (x5 : Vec Ideal S256x256 .bf16) (x6 : Vec Ideal S1x256 .f32) (x7 : Vec Ideal S1x256 .f32) (x8 : Vec Ideal S256x256 .bf16) (x9 : Vec Ideal S1x256 .f32) (x10 : Vec Ideal S1x256 .f32) (x11 : Vec Ideal S256x256 .bf16) (x12 : Vec Ideal S1x256 .f32) (x13 : Vec Ideal S1x256 .f32) (x14 : Vec Ideal S256x256 .bf16) (x15 : Vec Ideal S1x256 .f32) (x16 : Vec Ideal S1x256 .f32) (x17 : Vec Ideal S256x256 .bf16) (x18 : Vec Ideal S1x256 .f32) (x19 : Vec Ideal S1x256 .f32) (x20 : Vec Ideal S256x256 .bf16) (x21 : Vec Ideal S1x256 .f32) (x22 : Vec Ideal S256x128 .bf16) (x23 : Vec Ideal S1x128 .f32) : SplitW 128 where
  wt1 := fun k j => x2 (ix2 k j)
  wc1 := fun j => x3 (ix2 0 j)
  b1 := fun j => x4 (ix2 0 j)
  wt2 := fun k j => x5 (ix2 k j)
  wc2 := fun j => x6 (ix2 0 j)
  b2 := fun j => x7 (ix2 0 j)
  wt3 := fun k j => x8 (ix2 k j)
  wc3 := fun j => x9 (ix2 0 j)
  b3 := fun j => x10 (ix2 0 j)
  wt4 := fun k j => x11 (ix2 k j)
  wc4 := fun j => x12 (ix2 0 j)
  b4 := fun j => x13 (ix2 0 j)
  wt5 := fun k j => x14 (ix2 k j)
  wc5 := fun j => x15 (ix2 0 j)
  b5 := fun j => x16 (ix2 0 j)
  wt6 := fun k j => x17 (ix2 k j)
  wc6 := fun j => x18 (ix2 0 j)
  b6 := fun j => x19 (ix2 0 j)
  wt7 := fun k j => x20 (ix2 k j)
  b7 := fun j => x21 (ix2 0 j)
  wt8 := fun k q => x22 (ix2 k q)
  b8 := fun q => x23 (ix2 0 q)

/-- Layers one and two: the first part's value at `(p, j)`. -/
theorem part1_apply (x1 : Vec Ideal S5000x1 .f32) (x0 : Vec Ideal S5000x128 .f32) (x2 : Vec Ideal S128x256 .bf16) (x3 : Vec Ideal S1x256 .f32) (x4 : Vec Ideal S1x256 .f32) (x5 : Vec Ideal S256x256 .bf16) (x6 : Vec Ideal S1x256 .f32) (x7 : Vec Ideal S1x256 .f32) (p : Fin 5000) (j : Fin 256) :
    k0_pay3 x1 x0 x2 x3 x4 x5 x6 x7 (ix2 p j)
      = splitLayer (fun k j => x5 (ix2 k j)) (fun j => x6 (ix2 0 j)) (fun j => x7 (ix2 0 j)) (x1 (ix2 p 0))
          (splitLayer (fun k j => x2 (ix2 k j)) (fun j => x3 (ix2 0 j)) (fun j => x4 (ix2 0 j)) (x1 (ix2 p 0)) (fun k => x0 (ix2 p k))) j := by
  unfold k0_pay3 k0_pay2 splitLayer
  simp only [shapeCast_self, truncf_apply, maximumf_apply, addf_apply, mulf_apply, broadcast_apply, mm128_apply, mm256_apply, mmOut_apply, broadcastTo_a1_ab_apply, broadcastTo_1b_ab_apply]
  rfl

/-- Layers three and four, and layer five before its bias: the second part's value at `(p, j)`, for any
    block `H` handed over by the first part. -/
theorem part2_apply (x1 : Vec Ideal S5000x1 .f32) (H : FVec Ideal S5000x256 .bf16) (x8 : Vec Ideal S256x256 .bf16) (x9 : Vec Ideal S1x256 .f32) (x10 : Vec Ideal S1x256 .f32) (x11 : Vec Ideal S256x256 .bf16) (x12 : Vec Ideal S1x256 .f32) (x13 : Vec Ideal S1x256 .f32) (x14 : Vec Ideal S256x256 .bf16) (x15 : Vec Ideal S1x256 .f32) (p : Fin 5000) (j : Fin 256) :
    k0_pay4 (k0_pay2 x1) H x8 x9 x10 x11 x12 x13 x14 x15 (ix2 p j)
      = (∑ k : Fin 256, splitLayer (fun k j => x11 (ix2 k j)) (fun j => x12 (ix2 0 j)) (fun j => x13 (ix2 0 j)) (x1 (ix2 p 0))
            (splitLayer (fun k j => x8 (ix2 k j)) (fun j => x9 (ix2 0 j)) (fun j => x10 (ix2 0 j)) (x1 (ix2 p 0)) (fun k => H (ix2 p k))) k * x14 (ix2 k j))
          + x1 (ix2 p 0) * x15 (ix2 0 j) := by
  unfold k0_pay4 k0_pay2 splitLayer
  simp only [shapeCast_self, truncf_apply, maximumf_apply, addf_apply, mulf_apply, broadcast_apply, mm128_apply, mm256_apply, mmOut_apply, broadcastTo_a1_ab_apply, broadcastTo_1b_ab_apply]
  rfl

/-- Layer five's bias and rectifier, layers six and seven, and the last product: the third part's value at
    `(p, q)`, for any block `G` handed over by the second part. -/
theorem part3_apply (x1 : Vec Ideal S5000x1 .f32) (G : FVec Ideal S5000x256 .f32) (x16 : Vec Ideal S1x256 .f32) (x17 : Vec Ideal S256x256 .bf16) (x18 : Vec Ideal S1x256 .f32) (x19 : Vec Ideal S1x256 .f32) (x20 : Vec Ideal S256x256 .bf16) (x21 : Vec Ideal S1x256 .f32) (x22 : Vec Ideal S256x128 .bf16) (p : Fin 5000) (q : Fin 128) :
    k0_pay5 (k0_pay2 x1) G x16 x17 x18 x19 x20 x21 x22 (ix2 p q)
      = ∑ k : Fin 256, denseLayer (fun k j => x20 (ix2 k j)) (fun j => x21 (ix2 0 j))
            (splitLayer (fun k j => x17 (ix2 k j)) (fun j => x18 (ix2 0 j)) (fun j => x19 (ix2 0 j)) (x1 (ix2 p 0))
              (fun j => max (G (ix2 p j) + x16 (ix2 0 j)) z32)) k * x22 (ix2 k q) := by
  unfold k0_pay5 k0_pay2 splitLayer denseLayer
  simp only [shapeCast_self, truncf_apply, maximumf_apply, addf_apply, mulf_apply, broadcast_apply, mm128_apply, mm256_apply, mmOut_apply, broadcastTo_a1_ab_apply, broadcastTo_1b_ab_apply]
  rfl

/-- THE STORED VALUE at `(p, q)` is the split network of row `p`. -/
theorem payload_apply (x0 : Vec Ideal S5000x128 .f32) (x1 : Vec Ideal S5000x1 .f32) (x2 : Vec Ideal S128x256 .bf16) (x3 : Vec Ideal S1x256 .f32) (x4 : Vec Ideal S1x256 .f32) (x5 : Vec Ideal S256x256 .bf16) (x6 : Vec Ideal S1x256 .f32) (x7 : Vec Ideal S1x256 .f32) (x8 : Vec Ideal S256x256 .bf16) (x9 : Vec Ideal S1x256 .f32) (x10 : Vec Ideal S1x256 .f32) (x11 : Vec Ideal S256x256 .bf16) (x12 : Vec Ideal S1x256 .f32) (x13 : Vec Ideal S1x256 .f32) (x14 : Vec Ideal S256x256 .bf16) (x15 : Vec Ideal S1x256 .f32) (x16 : Vec Ideal S1x256 .f32) (x17 : Vec Ideal S256x256 .bf16) (x18 : Vec Ideal S1x256 .f32) (x19 : Vec Ideal S1x256 .f32) (x20 : Vec Ideal S256x256 .bf16) (x21 : Vec Ideal S1x256 .f32) (x22 : Vec Ideal S256x128 .bf16) (x23 : Vec Ideal S1x128 .f32) (p : Fin 5000) (q : Fin 128) :
    k0_pay1 (k0_pay5 (k0_pay2 x1) (k0_pay4 (k0_pay2 x1) (k0_pay3 x1 x0 x2 x3 x4 x5 x6 x7) x8 x9 x10 x11 x12 x13 x14 x15) x16 x17 x18 x19 x20 x21 x22) (k0_pay6 x23) (ix2 p q)
      = splitNet (blockW x2 x3 x4 x5 x6 x7 x8 x9 x10 x11 x12 x13 x14 x15 x16 x17 x18 x19 x20 x21 x22 x23) (x1 (ix2 p 0)) (fun k => x0 (ix2 p k)) q := by
  unfold k0_pay1 k0_pay6
  simp only [addf_apply, shapeCast_self, broadcastTo_1b_ab_apply]
  rw [part3_apply]
  simp only [part2_apply, part1_apply]
  rfl

/-- The same, with each weight block known to BE another array, the aggregated entry known to be `a` and the
    feature row known to be `x`: the form in which the blocks of a grid point are handed over. -/
theorem payload_of (x0 : Vec Ideal S5000x128 .f32) (x1 : Vec Ideal S5000x1 .f32) (x2 : Vec Ideal S128x256 .bf16) (x3 : Vec Ideal S1x256 .f32) (x4 : Vec Ideal S1x256 .f32) (x5 : Vec Ideal S256x256 .bf16) (x6 : Vec Ideal S1x256 .f32) (x7 : Vec Ideal S1x256 .f32) (x8 : Vec Ideal S256x256 .bf16) (x9 : Vec Ideal S1x256 .f32) (x10 : Vec Ideal S1x256 .f32) (x11 : Vec Ideal S256x256 .bf16) (x12 : Vec Ideal S1x256 .f32) (x13 : Vec Ideal S1x256 .f32) (x14 : Vec Ideal S256x256 .bf16) (x15 : Vec Ideal S1x256 .f32) (x16 : Vec Ideal S1x256 .f32) (x17 : Vec Ideal S256x256 .bf16) (x18 : Vec Ideal S1x256 .f32) (x19 : Vec Ideal S1x256 .f32) (x20 : Vec Ideal S256x256 .bf16) (x21 : Vec Ideal S1x256 .f32) (x22 : Vec Ideal S256x128 .bf16) (x23 : Vec Ideal S1x128 .f32) (z2 : Vec Ideal S128x256 .bf16) (z3 : Vec Ideal S1x256 .f32) (z4 : Vec Ideal S1x256 .f32) (z5 : Vec Ideal S256x256 .bf16) (z6 : Vec Ideal S1x256 .f32) (z7 : Vec Ideal S1x256 .f32) (z8 : Vec Ideal S256x256 .bf16) (z9 : Vec Ideal S1x256 .f32) (z10 : Vec Ideal S1x256 .f32) (z11 : Vec Ideal S256x256 .bf16) (z12 : Vec Ideal S1x256 .f32) (z13 : Vec Ideal S1x256 .f32) (z14 : Vec Ideal S256x256 .bf16) (z15 : Vec Ideal S1x256 .f32) (z16 : Vec Ideal S1x256 .f32) (z17 : Vec Ideal S256x256 .bf16) (z18 : Vec Ideal S1x256 .f32) (z19 : Vec Ideal S1x256 .f32) (z20 : Vec Ideal S256x256 .bf16) (z21 : Vec Ideal S1x256 .f32) (z22 : Vec Ideal S256x128 .bf16) (z23 : Vec Ideal S1x128 .f32) (a : EReal) (x : Fin 128 → EReal)
    (p : Fin 5000) (q : Fin 128)
    (h2 : x2 = z2) (h3 : x3 = z3) (h4 : x4 = z4) (h5 : x5 = z5) (h6 : x6 = z6) (h7 : x7 = z7) (h8 : x8 = z8) (h9 : x9 = z9) (h10 : x10 = z10) (h11 : x11 = z11) (h12 : x12 = z12) (h13 : x13 = z13) (h14 : x14 = z14) (h15 : x15 = z15) (h16 : x16 = z16) (h17 : x17 = z17) (h18 : x18 = z18) (h19 : x19 = z19) (h20 : x20 = z20) (h21 : x21 = z21) (h22 : x22 = z22) (h23 : x23 = z23)
    (ha : x1 (ix2 p 0) = a) (hx : ∀ k : Fin 128, x0 (ix2 p k) = x k) :
    k0_pay1 (k0_pay5 (k0_pay2 x1) (k0_pay4 (k0_pay2 x1) (k0_pay3 x1 x0 x2 x3 x4 x5 x6 x7) x8 x9 x10 x11 x12 x13 x14 x15) x16 x17 x18 x19 x20 x21 x22) (k0_pay6 x23) (ix2 p q)
      = splitNet (blockW z2 z3 z4 z5 z6 z7 z8 z9 z10 z11 z12 z13 z14 z15 z16 z17 z18 z19 z20 z21 z22 z23) a x q := by
  subst h2 h3 h4 h5 h6 h7 h8 h9 h10 h11 h12 h13 h14 h15 h16 h17 h18 h19 h20 h21 h22 h23 ha
  obtain rfl : (fun k : Fin 128 => x0 (ix2 p k)) = x := funext hx
  exact payload_apply x0 x1 x2 x3 x4 x5 x6 x7 x8 x9 x10 x11 x12 x13 x14 x15 x16 x17 x18 x19 x20 x21 x22 x23 p q

end Cert.KernelPayload

end
-- ==== Proof.KernelBlocks.lean ====
/- From the kernel's blocks to its whole output array, at the ideal instance.

   The grid has 20 points; point `t` reads rows `5000 t … 5000 t + 4999` of the node features and of the
   aggregated column, reads every weight array whole, and writes back rows `5000 t … 5000 t + 4999` of the
   `[100000, 128]` output. Each written row is the split network of the same row of the inputs, so the output
   array is ONE function of the staged arrays, row by row, and the 20 blocks tile it. -/
import proofs.«160156_j76192719831691_2_alg».proof.Proof.KernelIdealFrameP
import proofs.«160156_j76192719831691_2_alg».proof.Proof.KernelPayload
import Idealize.ShloMosaic.Lib.Pipeline.Value

set_option maxRecDepth 16384

noncomputable section

namespace Cert.KernelValue

open Cert.KernelIdeal Cert.KernelIdeal.Gen Cert.KernelIdeal.GenP Idealize.ShloMosaic Idealize.ShloMosaic.TcCoe Idealize.SL.Sem
open Idealize.ShloMosaic.ValueIdx Cert.SageSpec Cert.KernelPayload
open Idealize.ShloMosaic.Pipeline (Dat)

/-- The node (row) of an output index, and its lane (column). -/
def node (i : S100000x128.Idx) : Fin 100000 := i 0
def lane (i : S100000x128.Idx) : Fin 128 := i 1

/-- The whole output array as one function of the staged arrays: at `(r, q)`, output `q` of the split network
    of node `r`'s feature row and aggregated value. -/
def wholeOut (a0 : S100000x128.Idx → EReal) (a1 : S100000x1.Idx → EReal) (x2 : S128x256.Idx → EReal) (x3 : S1x256.Idx → EReal) (x4 : S1x256.Idx → EReal) (x5 : S256x256.Idx → EReal) (x6 : S1x256.Idx → EReal) (x7 : S1x256.Idx → EReal) (x8 : S256x256.Idx → EReal) (x9 : S1x256.Idx → EReal) (x10 : S1x256.Idx → EReal) (x11 : S256x256.Idx → EReal) (x12 : S1x256.Idx → EReal) (x13 : S1x256.Idx → EReal) (x14 : S256x256.Idx → EReal) (x15 : S1x256.Idx → EReal) (x16 : S1x256.Idx → EReal) (x17 : S256x256.Idx → EReal) (x18 : S1x256.Idx → EReal) (x19 : S1x256.Idx → EReal) (x20 : S256x256.Idx → EReal) (x21 : S1x256.Idx → EReal) (x22 : S256x128.Idx → EReal) (x23 : S1x128.Idx → EReal) : S100000x128.Idx → EReal :=
  fun i => splitNet (blockW x2 x3 x4 x5 x6 x7 x8 x9 x10 x11 x12 x13 x14 x15 x16 x17 x18 x19 x20 x21 x22 x23) (a1 (ix2 (node i) 0)) (fun k => a0 (ix2 (node i) k)) (lane i)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 20 grid points: the two row-blocked inputs move with the output's
    row block, and no window moves along the lanes. -/
theorem idx_rows : ∀ t : Fin cfg0.N,
    win0_0.index t (0 : Fin 2) = win0_24.index t (0 : Fin 2) ∧ win0_0.index t (1 : Fin 2) = 0
    ∧ win0_1.index t (0 : Fin 2) = win0_24.index t (0 : Fin 2) ∧ win0_1.index t (1 : Fin 2) = 0
    ∧ win0_24.index t (1 : Fin 2) = 0 ∧ win0_24.index t (0 : Fin 2) ≤ 19 :=
  (by decide +kernel : ∀ t : Fin grid0.N, _)

/-- Every row block of the output is some point's. -/
theorem idx_onto : ∀ q0 : Fin 20, ∃ t : Fin cfg0.N, win0_24.index t (0 : Fin 2) = q0.val :=
  (by decide +kernel : ∀ q0 : Fin 20, ∃ t : Fin grid0.N, win0_24.index t (0 : Fin 2) = q0.val)

/-! ## A weight window's block is its whole array at every point -/

theorem idx_w2 : ∀ t : Fin cfg0.N, win0_2.index t (0 : Fin 2) = 0 ∧ win0_2.index t (1 : Fin 2) = 0 :=
  (by decide +kernel : ∀ t : Fin grid0.N, _)
theorem iblk_2 (c : Dev nD) (t : Fin cfg0.N) : iblk m c 2 t = V m c (Pipeline.arrRef spec0 2) := by
  funext y
  unfold iblk
  generalize V m c (Pipeline.arrRef spec0 2) = A
  show A (((cfg0.win 2).blk t).view.emb y) = A y
  obtain ⟨e0, e1⟩ := idx_w2 t
  refine congrArg A (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem idx_w3 : ∀ t : Fin cfg0.N, win0_3.index t (0 : Fin 2) = 0 ∧ win0_3.index t (1 : Fin 2) = 0 :=
  (by decide +kernel : ∀ t : Fin grid0.N, _)
theorem iblk_3 (c : Dev nD) (t : Fin cfg0.N) : iblk m c 3 t = V m c (Pipeline.arrRef spec0 3) := by
  funext y
  unfold iblk
  generalize V m c (Pipeline.arrRef spec0 3) = A
  show A (((cfg0.win 3).blk t).view.emb y) = A y
  obtain ⟨e0, e1⟩ := idx_w3 t
  refine congrArg A (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem idx_w4 : ∀ t : Fin cfg0.N, win0_4.index t (0 : Fin 2) = 0 ∧ win0_4.index t (1 : Fin 2) = 0 :=
  (by decide +kernel : ∀ t : Fin grid0.N, _)
theorem iblk_4 (c : Dev nD) (t : Fin cfg0.N) : iblk m c 4 t = V m c (Pipeline.arrRef spec0 4) := by
  funext y
  unfold iblk
  generalize V m c (Pipeline.arrRef spec0 4) = A
  show A (((cfg0.win 4).blk t).view.emb y) = A y
  obtain ⟨e0, e1⟩ := idx_w4 t
  refine congrArg A (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem idx_w5 : ∀ t : Fin cfg0.N, win0_5.index t (0 : Fin 2) = 0 ∧ win0_5.index t (1 : Fin 2) = 0 :=
  (by decide +kernel : ∀ t : Fin grid0.N, _)
theorem iblk_5 (c : Dev nD) (t : Fin cfg0.N) : iblk m c 5 t = V m c (Pipeline.arrRef spec0 5) := by
  funext y
  unfold iblk
  generalize V m c (Pipeline.arrRef spec0 5) = A
  show A (((cfg0.win 5).blk t).view.emb y) = A y
  obtain ⟨e0, e1⟩ := idx_w5 t
  refine congrArg A (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem idx_w6 : ∀ t : Fin cfg0.N, win0_6.index t (0 : Fin 2) = 0 ∧ win0_6.index t (1 : Fin 2) = 0 :=
  (by decide +kernel : ∀ t : Fin grid0.N, _)
theorem iblk_6 (c : Dev nD) (t : Fin cfg0.N) : iblk m c 6 t = V m c (Pipeline.arrRef spec0 6) := by
  funext y
  unfold iblk
  generalize V m c (Pipeline.arrRef spec0 6) = A
  show A (((cfg0.win 6).blk t).view.emb y) = A y
  obtain ⟨e0, e1⟩ := idx_w6 t
  refine congrArg A (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem idx_w7 : ∀ t : Fin cfg0.N, win0_7.index t (0 : Fin 2) = 0 ∧ win0_7.index t (1 : Fin 2) = 0 :=
  (by decide +kernel : ∀ t : Fin grid0.N, _)
theorem iblk_7 (c : Dev nD) (t : Fin cfg0.N) : iblk m c 7 t = V m c (Pipeline.arrRef spec0 7) := by
  funext y
  unfold iblk
  generalize V m c (Pipeline.arrRef spec0 7) = A
  show A (((cfg0.win 7).blk t).view.emb y) = A y
  obtain ⟨e0, e1⟩ := idx_w7 t
  refine congrArg A (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem idx_w8 : ∀ t : Fin cfg0.N, win0_8.index t (0 : Fin 2) = 0 ∧ win0_8.index t (1 : Fin 2) = 0 :=
  (by decide +kernel : ∀ t : Fin grid0.N, _)
theorem iblk_8 (c : Dev nD) (t : Fin cfg0.N) : iblk m c 8 t = V m c (Pipeline.arrRef spec0 8) := by
  funext y
  unfold iblk
  generalize V m c (Pipeline.arrRef spec0 8) = A
  show A (((cfg0.win 8).blk t).view.emb y) = A y
  obtain ⟨e0, e1⟩ := idx_w8 t
  refine congrArg A (funext fun a => Fin.ext ?_)
  match a with
  | ⟨0, _⟩ => show win0_8.index t (0 : Fin 2) * 256 + 1 * (y 0).val = (y 0).val; omega
  | ⟨1, _⟩ => show win0_8.index t (1 : Fin 2) * 256 + 1 * (y 1).val = (y 1).val; omega

theorem idx_w9 : ∀ t : Fin cfg0.N, win0_9.index t (0 : Fin 2) = 0 ∧ win0_9.index t (1 : Fin 2) = 0 :=
  (by decide +kernel : ∀ t : Fin grid0.N, _)
theorem iblk_9 (c : Dev nD) (t : Fin cfg0.N) : iblk m c 9 t = V m c (Pipeline.arrRef spec0 9) := by
  funext y
  unfold iblk
  generalize V m c (Pipeline.arrRef spec0 9) = A
  show A (((cfg0.win 9).blk t).view.emb y) = A y
  obtain ⟨e0, e1⟩ := idx_w9 t
  refine congrArg A (funext fun a => Fin.ext ?_)
  match a with
  | ⟨0, _⟩ => show win0_9.index t (0 : Fin 2) * 1 + 1 * (y 0).val = (y 0).val; omega
  | ⟨1, _⟩ => show win0_9.index t (1 : Fin 2) * 256 + 1 * (y 1).val = (y 1).val; omega

theorem idx_w10 : ∀ t : Fin cfg0.N, win0_10.index t (0 : Fin 2) = 0 ∧ win0_10.index t (1 : Fin 2) = 0 :=
  (by decide +kernel : ∀ t : Fin grid0.N, _)
theorem iblk_10 (c : Dev nD) (t : Fin cfg0.N) : iblk m c 10 t = V m c (Pipeline.arrRef spec0 10) := by
  funext y
  unfold iblk
  generalize V m c (Pipeline.arrRef spec0 10) = A
  show A (((cfg0.win 10).blk t).view.emb y) = A y
  obtain ⟨e0, e1⟩ := idx_w10 t
  refine congrArg A (funext fun a => Fin.ext ?_)
  match a with
  | ⟨0, _⟩ => show win0_10.index t (0 : Fin 2) * 1 + 1 * (y 0).val = (y 0).val; omega
  | ⟨1, _⟩ => show win0_10.index t (1 : Fin 2) * 256 + 1 * (y 1).val = (y 1).val; omega

theorem idx_w11 : ∀ t : Fin cfg0.N, win0_11.index t (0 : Fin 2) = 0 ∧ win0_11.index t (1 : Fin 2) = 0 :=
  (by decide +kernel : ∀ t : Fin grid0.N, _)
theorem iblk_11 (c : Dev nD) (t : Fin cfg0.N) : iblk m c 11 t = V m c (Pipeline.arrRef spec0 11) := by
  funext y
  unfold iblk
  generalize V m c (Pipeline.arrRef spec0 11) = A
  show A (((cfg0.win 11).blk t).view.emb y) = A y
  obtain ⟨e0, e1⟩ := idx_w11 t
  refine congrArg A (funext fun a => Fin.ext ?_)
  match a with
  | ⟨0, _⟩ => show win0_11.index t (0 : Fin 2) * 256 + 1 * (y 0).val = (y 0).val; omega
  | ⟨1, _⟩ => show win0_11.index t (1 : Fin 2) * 256 + 1 * (y 1).val = (y 1).val; omega

theorem idx_w12 : ∀ t : Fin cfg0.N, win0_12.index t (0 : Fin 2) = 0 ∧ win0_12.index t (1 : Fin 2) = 0 :=
  (by decide +kernel : ∀ t : Fin grid0.N, _)
theorem iblk_12 (c : Dev nD) (t : Fin cfg0.N) : iblk m c 12 t = V m c (Pipeline.arrRef spec0 12) := by
  funext y
  unfold iblk
  generalize V m c (Pipeline.arrRef spec0 12) = A
  show A (((cfg0.win 12).blk t).view.emb y) = A y
  obtain ⟨e0, e1⟩ := idx_w12 t
  refine congrArg A (funext fun a => Fin.ext ?_)
  match a with
  | ⟨0, _⟩ => show win0_12.index t (0 : Fin 2) * 1 + 1 * (y 0).val = (y 0).val; omega
  | ⟨1, _⟩ => show win0_12.index t (1 : Fin 2) * 256 + 1 * (y 1).val = (y 1).val; omega

theorem idx_w13 : ∀ t : Fin cfg0.N, win0_13.index t (0 : Fin 2) = 0 ∧ win0_13.index t (1 : Fin 2) = 0 :=
  (by decide +kernel : ∀ t : Fin grid0.N, _)
theorem iblk_13 (c : Dev nD) (t : Fin cfg0.N) : iblk m c 13 t = V m c (Pipeline.arrRef spec0 13) := by
  funext y
  unfold iblk
  generalize V m c (Pipeline.arrRef spec0 13) = A
  show A (((cfg0.win 13).blk t).view.emb y) = A y
  obtain ⟨e0, e1⟩ := idx_w13 t
  refine congrArg A (funext fun a => Fin.ext ?_)
  match a with
  | ⟨0, _⟩ => show win0_13.index t (0 : Fin 2) * 1 + 1 * (y 0).val = (y 0).val; omega
  | ⟨1, _⟩ => show win0_13.index t (1 : Fin 2) * 256 + 1 * (y 1).val = (y 1).val; omega

theorem idx_w14 : ∀ t : Fin cfg0.N, win0_14.index t (0 : Fin 2) = 0 ∧ win0_14.index t (1 : Fin 2) = 0 :=
  (by decide +kernel : ∀ t : Fin grid0.N, _)
theorem iblk_14 (c : Dev nD) (t : Fin cfg0.N) : iblk m c 14 t = V m c (Pipeline.arrRef spec0 14) := by
  funext y
  unfold iblk
  generalize V m c (Pipeline.arrRef spec0 14) = A
  show A (((cfg0.win 14).blk t).view.emb y) = A y
  obtain ⟨e0, e1⟩ := idx_w14 t
  refine congrArg A (funext fun a => Fin.ext ?_)
  match a with
  | ⟨0, _⟩ => show win0_14.index t (0 : Fin 2) * 256 + 1 * (y 0).val = (y 0).val; omega
  | ⟨1, _⟩ => show win0_14.index t (1 : Fin 2) * 256 + 1 * (y 1).val = (y 1).val; omega

theorem idx_w15 : ∀ t : Fin cfg0.N, win0_15.index t (0 : Fin 2) = 0 ∧ win0_15.index t (1 : Fin 2) = 0 :=
  (by decide +kernel : ∀ t : Fin grid0.N, _)
theorem iblk_15 (c : Dev nD) (t : Fin cfg0.N) : iblk m c 15 t = V m c (Pipeline.arrRef spec0 15) := by
  funext y
  unfold iblk
  generalize V m c (Pipeline.arrRef spec0 15) = A
  show A (((cfg0.win 15).blk t).view.emb y) = A y
  obtain ⟨e0, e1⟩ := idx_w15 t
  refine congrArg A (funext fun a => Fin.ext ?_)
  match a with
  | ⟨0, _⟩ => show win0_15.index t (0 : Fin 2) * 1 + 1 * (y 0).val = (y 0).val; omega
  | ⟨1, _⟩ => show win0_15.index t (1 : Fin 2) * 256 + 1 * (y 1).val = (y 1).val; omega

theorem idx_w16 : ∀ t : Fin cfg0.N, win0_16.index t (0 : Fin 2) = 0 ∧ win0_16.index t (1 : Fin 2) = 0 :=
  (by decide +kernel : ∀ t : Fin grid0.N, _)
theorem iblk_16 (c : Dev nD) (t : Fin cfg0.N) : iblk m c 16 t = V m c (Pipeline.arrRef spec0 16) := by
  funext y
  unfold iblk
  generalize V m c (Pipeline.arrRef spec0 16) = A
  show A (((cfg0.win 16).blk t).view.emb y) = A y
  obtain ⟨e0, e1⟩ := idx_w16 t
  refine congrArg A (funext fun a => Fin.ext ?_)
  match a with
  | ⟨0, _⟩ => show win0_16.index t (0 : Fin 2) * 1 + 1 * (y 0).val = (y 0).val; omega
  | ⟨1, _⟩ => show win0_16.index t (1 : Fin 2) * 256 + 1 * (y 1).val = (y 1).val; omega

theorem idx_w17 : ∀ t : Fin cfg0.N, win0_17.index t (0 : Fin 2) = 0 ∧ win0_17.index t (1 : Fin 2) = 0 :=
  (by decide +kernel : ∀ t : Fin grid0.N, _)
theorem iblk_17 (c : Dev nD) (t : Fin cfg0.N) : iblk m c 17 t = V m c (Pipeline.arrRef spec0 17) := by
  funext y
  unfold iblk
  generalize V m c (Pipeline.arrRef spec0 17) = A
  show A (((cfg0.win 17).blk t).view.emb y) = A y
  obtain ⟨e0, e1⟩ := idx_w17 t
  refine congrArg A (funext fun a => Fin.ext ?_)
  match a with
  | ⟨0, _⟩ => show win0_17.index t (0 : Fin 2) * 256 + 1 * (y 0).val = (y 0).val; omega
  | ⟨1, _⟩ => show win0_17.index t (1 : Fin 2) * 256 + 1 * (y 1).val = (y 1).val; omega

theorem idx_w18 : ∀ t : Fin cfg0.N, win0_18.index t (0 : Fin 2) = 0 ∧ win0_18.index t (1 : Fin 2) = 0 :=
  (by decide +kernel : ∀ t : Fin grid0.N, _)
theorem iblk_18 (c : Dev nD) (t : Fin cfg0.N) : iblk m c 18 t = V m c (Pipeline.arrRef spec0 18) := by
  funext y
  unfold iblk
  generalize V m c (Pipeline.arrRef spec0 18) = A
  show A (((cfg0.win 18).blk t).view.emb y) = A y
  obtain ⟨e0, e1⟩ := idx_w18 t
  refine congrArg A (funext fun a => Fin.ext ?_)
  match a with
  | ⟨0, _⟩ => show win0_18.index t (0 : Fin 2) * 1 + 1 * (y 0).val = (y 0).val; omega
  | ⟨1, _⟩ => show win0_18.index t (1 : Fin 2) * 256 + 1 * (y 1).val = (y 1).val; omega

theorem idx_w19 : ∀ t : Fin cfg0.N, win0_19.index t (0 : Fin 2) = 0 ∧ win0_19.index t (1 : Fin 2) = 0 :=
  (by decide +kernel : ∀ t : Fin grid0.N, _)
theorem iblk_19 (c : Dev nD) (t : Fin cfg0.N) : iblk m c 19 t = V m c (Pipeline.arrRef spec0 19) := by
  funext y
  unfold iblk
  generalize V m c (Pipeline.arrRef spec0 19) = A
  show A (((cfg0.win 19).blk t).view.emb y) = A y
  obtain ⟨e0, e1⟩ := idx_w19 t
  refine congrArg A (funext fun a => Fin.ext ?_)
  match a with
  | ⟨0, _⟩ => show win0_19.index t (0 : Fin 2) * 1 + 1 * (y 0).val = (y 0).val; omega
  | ⟨1, _⟩ => show win0_19.index t (1 : Fin 2) * 256 + 1 * (y 1).val = (y 1).val; omega

theorem idx_w20 : ∀ t : Fin cfg0.N, win0_20.index t (0 : Fin 2) = 0 ∧ win0_20.index t (1 : Fin 2) = 0 :=
  (by decide +kernel : ∀ t : Fin grid0.N, _)
theorem iblk_20 (c : Dev nD) (t : Fin cfg0.N) : iblk m c 20 t = V m c (Pipeline.arrRef spec0 20) := by
  funext y
  unfold iblk
  generalize V m c (Pipeline.arrRef spec0 20) = A
  show A (((cfg0.win 20).blk t).view.emb y) = A y
  obtain ⟨e0, e1⟩ := idx_w20 t
  refine congrArg A (funext fun a => Fin.ext ?_)
  match a with
  | ⟨0, _⟩ => show win0_20.index t (0 : Fin 2) * 256 + 1 * (y 0).val = (y 0).val; omega
  | ⟨1, _⟩ => show win0_20.index t (1 : Fin 2) * 256 + 1 * (y 1).val = (y 1).val; omega

theorem idx_w21 : ∀ t : Fin cfg0.N, win0_21.index t (0 : Fin 2) = 0 ∧ win0_21.index t (1 : Fin 2) = 0 :=
  (by decide +kernel : ∀ t : Fin grid0.N, _)
theorem iblk_21 (c : Dev nD) (t : Fin cfg0.N) : iblk m c 21 t = V m c (Pipeline.arrRef spec0 21) := by
  funext y
  unfold iblk
  generalize V m c (Pipeline.arrRef spec0 21) = A
  show A (((cfg0.win 21).blk t).view.emb y) = A y
  obtain ⟨e0, e1⟩ := idx_w21 t
  refine congrArg A (funext fun a => Fin.ext ?_)
  match a with
  | ⟨0, _⟩ => show win0_21.index t (0 : Fin 2) * 1 + 1 * (y 0).val = (y 0).val; omega
  | ⟨1, _⟩ => show win0_21.index t (1 : Fin 2) * 256 + 1 * (y 1).val = (y 1).val; omega

theorem idx_w22 : ∀ t : Fin cfg0.N, win0_22.index t (0 : Fin 2) = 0 ∧ win0_22.index t (1 : Fin 2) = 0 :=
  (by decide +kernel : ∀ t : Fin grid0.N, _)
theorem iblk_22 (c : Dev nD) (t : Fin cfg0.N) : iblk m c 22 t = V m c (Pipeline.arrRef spec0 22) := by
  funext y
  unfold iblk
  generalize V m c (Pipeline.arrRef spec0 22) = A
  show A (((cfg0.win 22).blk t).view.emb y) = A y
  obtain ⟨e0, e1⟩ := idx_w22 t
  refine congrArg A (funext fun a => Fin.ext ?_)
  match a with
  | ⟨0, _⟩ => show win0_22.index t (0 : Fin 2) * 256 + 1 * (y 0).val = (y 0).val; omega
  | ⟨1, _⟩ => show win0_22.index t (1 : Fin 2) * 128 + 1 * (y 1).val = (y 1).val; omega

theorem idx_w23 : ∀ t : Fin cfg0.N, win0_23.index t (0 : Fin 2) = 0 ∧ win0_23.index t (1 : Fin 2) = 0 :=
  (by decide +kernel : ∀ t : Fin grid0.N, _)
theorem iblk_23 (c : Dev nD) (t : Fin cfg0.N) : iblk m c 23 t = V m c (Pipeline.arrRef spec0 23) := by
  funext y
  unfold iblk
  generalize V m c (Pipeline.arrRef spec0 23) = A
  show A (((cfg0.win 23).blk t).view.emb y) = A y
  obtain ⟨e0, e1⟩ := idx_w23 t
  refine congrArg A (funext fun a => Fin.ext ?_)
  match a with
  | ⟨0, _⟩ => show win0_23.index t (0 : Fin 2) * 1 + 1 * (y 0).val = (y 0).val; omega
  | ⟨1, _⟩ => show win0_23.index t (1 : Fin 2) * 128 + 1 * (y 1).val = (y 1).val; omega

/-! ## What a point writes back -/

/-- The output window's block of an array, read at a block index, is the array at the embedded index. -/
theorem read_out (t : Fin cfg0.N) (A : S100000x128.Idx → EReal) (y : S5000x128.Idx) :
    ((cfg0.win 24).blk t).view.read (Elt Ideal) A y = A (((cfg0.win 24).blk t).view.emb y) := rfl

/-- `wholeOut` at `(r, q)`. -/
theorem wholeOut_apply (a0 : S100000x128.Idx → EReal) (a1 : S100000x1.Idx → EReal) (x2 : S128x256.Idx → EReal) (x3 : S1x256.Idx → EReal) (x4 : S1x256.Idx → EReal) (x5 : S256x256.Idx → EReal) (x6 : S1x256.Idx → EReal) (x7 : S1x256.Idx → EReal) (x8 : S256x256.Idx → EReal) (x9 : S1x256.Idx → EReal) (x10 : S1x256.Idx → EReal) (x11 : S256x256.Idx → EReal) (x12 : S1x256.Idx → EReal) (x13 : S1x256.Idx → EReal) (x14 : S256x256.Idx → EReal) (x15 : S1x256.Idx → EReal) (x16 : S1x256.Idx → EReal) (x17 : S256x256.Idx → EReal) (x18 : S1x256.Idx → EReal) (x19 : S1x256.Idx → EReal) (x20 : S256x256.Idx → EReal) (x21 : S1x256.Idx → EReal) (x22 : S256x128.Idx → EReal) (x23 : S1x128.Idx → EReal) (r : Fin 100000) (q : Fin 128) :
    wholeOut a0 a1 x2 x3 x4 x5 x6 x7 x8 x9 x10 x11 x12 x13 x14 x15 x16 x17 x18 x19 x20 x21 x22 x23 (ix2 r q)
      = splitNet (blockW x2 x3 x4 x5 x6 x7 x8 x9 x10 x11 x12 x13 x14 x15 x16 x17 x18 x19 x20 x21 x22 x23) (a1 (ix2 r (0 : Fin 1))) (fun k => a0 (ix2 r k)) q := rfl

/-- The array row that row `p` of point `t`'s block is: `5000` times the point's row block, plus `p`. -/
def rowOf (t : Fin cfg0.N) (p : Fin 5000) : Fin 100000 :=
  ⟨win0_24.index t (0 : Fin 2) * 5000 + p.val, by have := (idx_rows t).2.2.2.2.2; have := p.isLt; omega⟩

/-- Row `p` of the node-feature block of point `t` is row `rowOf t p` of the node features. -/
theorem read_row0 (c : Dev nD) (t : Fin cfg0.N) (p : Fin 5000) (k : Fin 128) :
    iblk m c 0 t (ix2 p k) = V m c (Pipeline.arrRef spec0 0) (ix2 (rowOf t p) k) := by
  unfold iblk
  generalize V m c (Pipeline.arrRef spec0 0) = A
  show A (((cfg0.win 0).blk t).view.emb (ix2 p k)) = A (ix2 (rowOf t p) k)
  obtain ⟨e0, e1, e2, e3, e4, e5⟩ := idx_rows t
  refine congrArg A (funext fun a => Fin.ext ?_)
  match a with
  | ⟨0, _⟩ => show win0_0.index t (0 : Fin 2) * 5000 + 1 * p.val = win0_24.index t (0 : Fin 2) * 5000 + p.val; omega
  | ⟨1, _⟩ => show win0_0.index t (1 : Fin 2) * 128 + 1 * k.val = k.val; omega

/-- The aggregated window's block of an array, read at a block index, is the array at the embedded index. -/
theorem read_agg (t : Fin cfg0.N) (A : S100000x1.Idx → EReal) (y : S5000x1.Idx) :
    ((cfg0.win 1).blk t).view.read (Elt Ideal) A y = A (((cfg0.win 1).blk t).view.emb y) := rfl

/-- Entry `p` of point `t`'s aggregated block sits at entry `rowOf t p` of the column. -/
theorem agg_emb (t : Fin cfg0.N) (p : Fin 5000) (A : S100000x1.Idx → EReal) :
    A (((cfg0.win 1).blk t).view.emb (ix2 p (0 : Fin 1))) = A (ix2 (rowOf t p) (0 : Fin 1)) := by
  obtain ⟨e0, e1, e2, e3, e4, e5⟩ := idx_rows t
  refine congrArg A (funext fun a => Fin.ext ?_)
  match a with
  | ⟨0, _⟩ => show win0_1.index t (0 : Fin 2) * 5000 + 1 * p.val = win0_24.index t (0 : Fin 2) * 5000 + p.val; omega
  | ⟨1, _⟩ => show win0_1.index t (1 : Fin 2) * 1 + 1 * 0 = 0; omega

/-- Entry `p` of the aggregated block of point `t` is entry `rowOf t p` of the aggregated column. -/
theorem read_row1 (c : Dev nD) (t : Fin cfg0.N) (p : Fin 5000) :
    iblk m c 1 t (ix2 p (0 : Fin 1)) = V m c main_v2 (ix2 (rowOf t p) (0 : Fin 1)) := by
  unfold iblk
  exact (read_agg t (V m c main_v2) (ix2 p (0 : Fin 1))).trans (agg_emb t p (V m c main_v2))

/-- Entry `(p, q)` of point `t`'s output block is entry `(rowOf t p, q)` of the output array. -/
theorem emb_out (t : Fin cfg0.N) (p : Fin 5000) (q : Fin 128) :
    ((cfg0.win 24).blk t).view.emb (ix2 p q) = ix2 (rowOf t p) q := by
  obtain ⟨e0, e1, e2, e3, e4, e5⟩ := idx_rows t
  refine funext fun a => Fin.ext ?_
  match a with
  | ⟨0, _⟩ => show win0_24.index t (0 : Fin 2) * 5000 + 1 * p.val = win0_24.index t (0 : Fin 2) * 5000 + p.val; omega
  | ⟨1, _⟩ => show win0_24.index t (1 : Fin 2) * 128 + 1 * q.val = q.val; omega

set_option maxHeartbeats 2000000 in
/-- WHAT POINT `t` WRITES BACK is block `t` of `wholeOut` of the arrays as the region finds them. -/
theorem flushed_eq (c : Dev nD) (t : Fin cfg0.N) :
    (dats m 0 c).flushed 24 t = ((cfg0.win 24).blk t).view.read (Elt Ideal) (wholeOut (V m c (Pipeline.arrRef spec0 0)) (V m c main_v2) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) (V m c (Pipeline.arrRef spec0 19)) (V m c (Pipeline.arrRef spec0 20)) (V m c (Pipeline.arrRef spec0 21)) (V m c (Pipeline.arrRef spec0 22)) (V m c (Pipeline.arrRef spec0 23))) := by
  show (cfg0.win 24).cut (grid0.coords t) ((dats m 0 c).after 24 t) = _
  rw [after0_24]
  unfold out0_24
  rw [View.canon_unit_zero hz]
  simp only [View.ld_unit_zero (S := S5000x1) hz, View.ld_unit_zero (S := S5000x128) hz, View.ld_unit_zero (S := S128x256) hz,
    View.ld_unit_zero (S := S1x256) hz, View.ld_unit_zero (S := S256x256) hz, View.ld_unit_zero (S := S256x128) hz,
    View.ld_unit_zero (S := S1x128) hz]
  funext y
  obtain ⟨p, q, rfl⟩ : ∃ (p : Fin 5000) (q : Fin 128), y = ix2 p q := ⟨y 0, y 1, eq_ix2 y⟩
  refine (payload_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) (V m c (Pipeline.arrRef spec0 19)) (V m c (Pipeline.arrRef spec0 20)) (V m c (Pipeline.arrRef spec0 21)) (V m c (Pipeline.arrRef spec0 22)) (V m c (Pipeline.arrRef spec0 23))
    (V m c main_v2 (ix2 (rowOf t p) (0 : Fin 1))) (fun k => V m c (Pipeline.arrRef spec0 0) (ix2 (rowOf t p) k)) p q
    (iblk_2 m c t) (iblk_3 m c t) (iblk_4 m c t) (iblk_5 m c t) (iblk_6 m c t) (iblk_7 m c t) (iblk_8 m c t) (iblk_9 m c t) (iblk_10 m c t) (iblk_11 m c t) (iblk_12 m c t) (iblk_13 m c t) (iblk_14 m c t) (iblk_15 m c t) (iblk_16 m c t) (iblk_17 m c t) (iblk_18 m c t) (iblk_19 m c t) (iblk_20 m c t) (iblk_21 m c t) (iblk_22 m c t) (iblk_23 m c t)
    (read_row1 m c t p) (fun k => read_row0 m c t p k)).trans ?_
  rw [read_out, emb_out t p q, wholeOut_apply]

/-! ## The blocks tile the output -/

/-- An index of the output is in point `t`'s block iff each coordinate is in the block's range on its axis. -/
theorem mem_blk (t : Fin cfg0.N) (i : S100000x128.Idx) :
    i ∈ ((cfg0.win 24).blk t).view.set ↔ ∀ a : Fin 2, win0_24.index t a * S5000x128.size a ≤ (i a).val ∧ (i a).val < win0_24.index t a * S5000x128.size a + S5000x128.size a := by
  show i ∈ ((View.whole main_v57).slice (win0_24.rect t)).set ↔ _
  rw [View.set_slice_whole, Rect.mem_set_unit]
  exact Iff.rfl

/-- Row `r` lies in the block of the point whose row block is `r / 5000`. -/
theorem cover (i : S100000x128.Idx) :
    ∃ t : Fin cfg0.N, (cfg0.win 24).flush t = true ∧ i ∈ ((cfg0.win 24).blk t).view.set := by
  have hi0 : (i 0).val < 100000 := (i 0).isLt
  have hi1 : (i 1).val < 128 := (i 1).isLt
  obtain ⟨t, ht⟩ := idx_onto ⟨(i 0).val / 5000, by omega⟩
  have ht' : win0_24.index t (0 : Fin 2) = (i 0).val / 5000 := ht
  obtain ⟨e0, e1, e2, e3, e4, e5⟩ := idx_rows t
  refine ⟨t, flush0_24 t, ?_⟩
  rw [mem_blk]
  intro a
  match a with
  | ⟨0, _⟩ => show win0_24.index t (0 : Fin 2) * 5000 ≤ (i 0).val ∧ (i 0).val < win0_24.index t (0 : Fin 2) * 5000 + 5000; omega
  | ⟨1, _⟩ => show win0_24.index t (1 : Fin 2) * 128 ≤ (i 1).val ∧ (i 1).val < win0_24.index t (1 : Fin 2) * 128 + 128; omega

/-- THE OUTPUT ARRAY after the run is `wholeOut` of the arrays as the region finds them. -/
theorem final (c : Dev nD) : (dats m 0 c).arrAt 24 cfg0.N = wholeOut (V m c (Pipeline.arrRef spec0 0)) (V m c main_v2) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) (V m c (Pipeline.arrRef spec0 19)) (V m c (Pipeline.arrRef spec0 20)) (V m c (Pipeline.arrRef spec0 21)) (V m c (Pipeline.arrRef spec0 22)) (V m c (Pipeline.arrRef spec0 23)) :=
  (dats m 0 c).arrAt_eq_of_cover 24 _ (fun t _ => flushed_eq m c t) cover

end Cert.KernelValue

end
-- ==== Proof.PadScatter.lean ====
/- Reading a zero-padded array at the row that was written.

   A scatter whose body returns the update is a left fold, over the update's positions in row-major order, of
   steps that each overwrite at most one position of the operand. When exactly one update position lands on a
   given operand position, the scatter's value there is that update's value. For the two paddings of this
   program (a `1 × 256` block into a `128 × 256` operand, a length-1 block into a length-128 operand, both at
   scatter index zero) the update position `(0, c)`, resp. `0`, lands on the operand position of the same
   coordinates, and on no other, so row 0 of the result is the update. -/
import proofs.«160156_j76192719831691_2_alg».proof.KernelIdeal
import Idealize.ShloMosaic.Lib.ValueIdx

namespace Cert.PadScatter

open Idealize.ShloMosaic Idealize.ShloMosaic.ValueIdx Cert.KernelIdeal

/-- A left fold of steps that each overwrite at most one position: if exactly one element `n0` of the list
    writes position `i`, the folded function's value at `i` is the value `n0` writes. The invariant carried
    through the list: the value at `i` is `v n0` once `n0` has been met, and the start's before. -/
theorem foldl_write_apply {ι β γ : Type} (g : γ → Option ι) (v : γ → β) (step : (ι → β) → γ → ι → β)
    (hsome_eq : ∀ r n i', g n = some i' → step r n i' = v n)
    (hsome_ne : ∀ r n i' k, g n = some i' → k ≠ i' → step r n k = r k)
    (hnone : ∀ r n, g n = none → step r n = r)
    (i : ι) (n0 : γ) (hg : g n0 = some i) :
    ∀ (L : List γ) (x : ι → β), (∀ n ∈ L, g n = some i → n = n0) →
      (n0 ∈ L → L.foldl step x i = v n0) ∧ (n0 ∉ L → L.foldl step x i = x i) := by
  intro L
  induction L with
  | nil => intro x _; exact ⟨fun h => absurd h (List.not_mem_nil), fun _ => rfl⟩
  | cons a L ih =>
    intro x huniq
    have huniq' : ∀ n ∈ L, g n = some i → n = n0 := fun n hn => huniq n (List.mem_cons_of_mem a hn)
    obtain ⟨ih1, ih2⟩ := ih (step x a) huniq'
    rw [List.foldl_cons]
    by_cases hL : n0 ∈ L
    · exact ⟨fun _ => ih1 hL, fun h => absurd (List.mem_cons_of_mem a hL) h⟩
    · by_cases ha : n0 = a
      · subst ha
        refine ⟨fun _ => ?_, fun h => absurd (List.mem_cons_self) h⟩
        rw [ih2 hL, hsome_eq x n0 i hg]
      · refine ⟨fun h => ?_, fun _ => ?_⟩
        · rcases List.mem_cons.1 h with h | h
          · exact absurd h ha
          · exact absurd h hL
        · rw [ih2 hL]
          cases hga : g a with
          | none => rw [hnone x a hga]
          | some i' =>
            have hne : i ≠ i' := fun hii => ha (huniq a List.mem_cons_self (by rw [hga, hii])).symm
            exact hsome_ne x a i' i hga hne

/-- Reading a scatter whose body returns the update, at a result index that exactly one update index lands on. -/
theorem scatter_set_apply {α : Type} {w : Nat} {s si u : Shape} (d : ScatterDims s si u) (x : s.Idx → α) (idx : IVec si w)
    (upd : u.Idx → α) (i : s.Idx) (j0 : u.Idx) (h0 : d.resultIdx? j0 idx = some i)
    (huniq : ∀ j, d.resultIdx? j idx = some i → j = j0) :
    Host.scatter d (fun _ b => b) x idx upd i = upd j0 := by
  unfold Host.scatter
  refine Eq.trans ((foldl_write_apply (ι := s.Idx) (β := α) (γ := Fin u.numel)
    (fun n => d.resultIdx? (u.rowMajor.symm n) idx) (fun n => upd (u.rowMajor.symm n)) _
    ?_ ?_ ?_ i (u.rowMajor j0) (by simpa using h0) (List.finRange u.numel) x
    (by
      intro n _ hn
      have := huniq _ hn
      rw [← this]; simp)).1 (List.mem_finRange _)) (by simp)
  · intro r n i' h; simp only [h]; simp
  · intro r n i' k h hk; simp only [h]; simp [hk]
  · intro r n h; simp only [h]

section
variable [Facts₀]

/-- With the one scatter index zero, the update index `(r, c)` of the `1 × 256` update lands on the operand's
    index `(r, c)`: the window starts at the origin and every window coordinate is inside the operand. -/
theorem rows_resultIdx (idx : IVec S1 32) (hidx : ∀ i, idx i = 0#32) (j : S1x256.Idx) :
    scatter_S128x256_S1_S1x256_01_n_0_0.resultIdx? j idx
      = some (ix2 (⟨(j 0).val, Nat.lt_of_lt_of_le (j 0).isLt (by decide)⟩ : Fin 128) (⟨(j 1).val, (j 1).isLt⟩ : Fin 256)) := by
  have hs : ∀ a, scatter_S128x256_S1_S1x256_01_n_0_0.start j idx a = 0 := by
    intro a; unfold ScatterDims.start; split
    · rw [hidx]; rfl
    · rfl
  have hw0 : scatter_S128x256_S1_S1x256_01_n_0_0.window j 0 = (j 0).val := rfl
  have hw1 : scatter_S128x256_S1_S1x256_01_n_0_0.window j 1 = (j 1).val := rfl
  have hj0 : (j 0).val < 1 := (j 0).isLt
  have hj1 : (j 1).val < 256 := (j 1).isLt
  have hz0 : S128x256.size 0 = 128 := rfl
  have hz1 : S128x256.size 1 = 256 := rfl
  have h : ∀ a, 0 ≤ scatter_S128x256_S1_S1x256_01_n_0_0.start j idx a + scatter_S128x256_S1_S1x256_01_n_0_0.window j a
      ∧ scatter_S128x256_S1_S1x256_01_n_0_0.start j idx a + scatter_S128x256_S1_S1x256_01_n_0_0.window j a < S128x256.size a := by
    rw [Fin.forall_fin_two, hs 0, hs 1, hw0, hw1, hz0, hz1]
    omega
  unfold ScatterDims.resultIdx?
  rw [dif_pos h]
  congr 1
  funext a
  match a with
  | ⟨0, _⟩ =>
    apply Fin.ext
    show (scatter_S128x256_S1_S1x256_01_n_0_0.start j idx 0 + scatter_S128x256_S1_S1x256_01_n_0_0.window j 0).toNat = (j 0).val
    rw [hs 0, hw0]; simp
  | ⟨1, _⟩ =>
    apply Fin.ext
    show (scatter_S128x256_S1_S1x256_01_n_0_0.start j idx 1 + scatter_S128x256_S1_S1x256_01_n_0_0.window j 1).toNat = (j 1).val
    rw [hs 1, hw1]; simp

/-- Row 0 of the scatter of a `1 × 256` update into a `128 × 256` operand at scatter index zero is the update's row. -/
theorem pad_rows_apply {α : Type} (z : S128x256.Idx → α) (idx : IVec S1 32) (hidx : ∀ i, idx i = 0#32)
    (upd : S1x256.Idx → α) (k : Fin 256) :
    Host.scatter scatter_S128x256_S1_S1x256_01_n_0_0 (fun _ b => b) z idx upd (ix2 0 k) = upd (ix2 0 k) := by
  apply scatter_set_apply
  · rw [rows_resultIdx idx hidx]; rfl
  · intro j hj
    rw [rows_resultIdx idx hidx] at hj
    have h1 := congrFun (Option.some.inj hj) 1
    have hk : j 1 = k := Fin.ext (Fin.mk.inj_iff.1 h1)
    have h0 : j 0 = (0 : Fin 1) := Subsingleton.elim (α := Fin 1) _ _
    funext a
    match a with
    | ⟨0, _⟩ => exact h0
    | ⟨1, _⟩ => exact hk

/-- With the one scatter index zero, the one update index of the length-1 update lands on the operand's index of
    the same coordinate. -/
theorem vec_resultIdx (idx : IVec S1 32) (hidx : ∀ i, idx i = 0#32) (j : S1.Idx) :
    scatter_S128_S1_S1_0_n_0_0.resultIdx? j idx
      = some (ix1 (⟨(j 0).val, Nat.lt_of_lt_of_le (j 0).isLt (by decide)⟩ : Fin 128)) := by
  have hs : ∀ a, scatter_S128_S1_S1_0_n_0_0.start j idx a = 0 := by
    intro a; unfold ScatterDims.start; split
    · rw [hidx]; rfl
    · rfl
  have hw0 : scatter_S128_S1_S1_0_n_0_0.window j 0 = (j 0).val := rfl
  have hj0 : (j 0).val < 1 := (j 0).isLt
  have hz0 : S128.size 0 = 128 := rfl
  have h : ∀ a, 0 ≤ scatter_S128_S1_S1_0_n_0_0.start j idx a + scatter_S128_S1_S1_0_n_0_0.window j a
      ∧ scatter_S128_S1_S1_0_n_0_0.start j idx a + scatter_S128_S1_S1_0_n_0_0.window j a < S128.size a := by
    intro a
    have ha : a = 0 := Subsingleton.elim (α := Fin 1) _ _
    rw [ha, hs 0, hw0, hz0]
    omega
  unfold ScatterDims.resultIdx?
  rw [dif_pos h]
  congr 1
  funext a
  match a with
  | ⟨0, _⟩ =>
    apply Fin.ext
    show (scatter_S128_S1_S1_0_n_0_0.start j idx 0 + scatter_S128_S1_S1_0_n_0_0.window j 0).toNat = (j 0).val
    rw [hs 0, hw0]; simp

/-- Entry 0 of the scatter of a length-1 update into a length-128 operand at scatter index zero is the update's entry. -/
theorem pad_vec_apply {α : Type} (z : S128.Idx → α) (idx : IVec S1 32) (hidx : ∀ i, idx i = 0#32) (upd : S1.Idx → α) :
    Host.scatter scatter_S128_S1_S1_0_n_0_0 (fun _ b => b) z idx upd (ix1 0) = upd (ix1 0) := by
  apply scatter_set_apply
  · rw [vec_resultIdx idx hidx]; rfl
  · intro j _
    funext a
    match a with
    | ⟨0, _⟩ => exact Subsingleton.elim (α := Fin 1) _ _

end

end Cert.PadScatter
-- ==== Proof.KernelHost.lean ====
/- The arrays the wrapper stages for the kernel, read entry by entry in terms of the arguments, at the
   ideal instance (where a change of float format is the identity).

   Each joined weight matrix `W` (`[256, d + 1]`) is staged as three arrays: its first `d` columns transposed
   (`[d, 256]`), its last column as a row (`[1, 256]`), and the bias as a row. The last layer's one-row matrix and
   one-entry bias are padded with zeros to 128 lanes; lane 0 holds the original. The aggregated edge values are
   one scatter-add of the edge features, the same term the reference computes. -/
import proofs.«160156_j76192719831691_2_alg».proof.Proof.KernelIdealFrameP
import proofs.«160156_j76192719831691_2_alg».proof.Proof.PadScatter
import Idealize.ShloMosaic.Lib.Pipeline.Value
import Idealize.ShloMosaic.Lib.ValueIdx
import Idealize.ShloMosaic.Lib.ValueLayout
import Idealize.ShloMosaic.Lib.StableHlo.Run

set_option maxHeartbeats 1000000

noncomputable section

namespace Cert.KernelHost

open Cert.KernelIdeal Cert.KernelIdeal.Gen Cert.KernelIdeal.GenP Idealize.ShloMosaic Idealize.ShloMosaic.TcCoe Idealize.SL.Sem
open Idealize.ShloMosaic.ValueIdx Idealize.ShloMosaic.StableHlo

/-- A `[a, 1]` column cast to `[a]` reads, at `i`, the column's entry `i`. -/
theorem col_to_vec_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ)

/-- Layer 1's matrix as staged: the argument's first 128 columns, transposed. -/
theorem wt1_read (c : Dev nD) (k : Fin 128) (j : Fin 256) :
    V m c main_v7 (ix2 k j) = (m ((c : Thread nD τ).loc main_arg3)) (ix2 j k.castSucc) := by
  have e : (V m c main_v7 : S128x256.Idx → EReal)
      = truncf (F := Ideal) .bf16 (transpose S128x256 [1, 0] (extractStridedSlice S256x128 ![0, 0] (m ((c : Thread nD τ).loc main_arg3)) slices_S256x129_S256x128_0_0) transposes_S256x128_S128x256_1_0) bitsLt_bf16_f32 := by
    show StableHlo.after hostOps0 (fun b => m (c, b)) (Proc.devRef .tc main_v7) = _
    after_results <;> rfl
  rw [e, truncf_apply, transpose_ix2_apply, slice2_axis1_apply 0 _ _ j k k.castSucc (by simp)]

/-- Layer 1's aggregated-value column as staged: the argument's last column, as a row. -/
theorem wc1_read (c : Dev nD) (j : Fin 256) :
    V m c main_v8 (ix2 (0 : Fin 1) j) = (m ((c : Thread nD τ).loc main_arg3)) (ix2 j (Fin.last 128)) := by
  have e : (V m c main_v8 : S1x256.Idx → EReal)
      = shapeCast S1x256 (shapeCast S256 (extractStridedSlice S256x1 ![0, 128] (m ((c : Thread nD τ).loc main_arg3)) slices_S256x129_S256x1_0_128) shapeCasts_S256x1_S256) shapeCasts_S256_S1x256 := by
    show StableHlo.after hostOps0 (fun b => m (c, b)) (Proc.devRef .tc main_v8) = _
    after_results <;> rfl
  rw [e, shapeCast_a_1a_apply, col_to_vec_apply, slice2_axis1_apply 128 _ _ j (0 : Fin 1) (Fin.last 128) (by simp)]

/-- Layer 1's bias as staged: the argument, as a row. -/
theorem b1_read (c : Dev nD) (j : Fin 256) :
    V m c main_v9 (ix2 (0 : Fin 1) j) = (m ((c : Thread nD τ).loc main_arg4)) (ix1 j) := by
  have e : (V m c main_v9 : S1x256.Idx → EReal) = shapeCast S1x256 (m ((c : Thread nD τ).loc main_arg4)) shapeCasts_S256_S1x256 := by
    show StableHlo.after hostOps0 (fun b => m (c, b)) (Proc.devRef .tc main_v9) = _
    after_results <;> rfl
  rw [e, shapeCast_a_1a_apply]

/-- Layer 2's matrix as staged: the argument's first 256 columns, transposed. -/
theorem wt2_read (c : Dev nD) (k : Fin 256) (j : Fin 256) :
    V m c main_v14 (ix2 k j) = (m ((c : Thread nD τ).loc main_arg5)) (ix2 j k.castSucc) := by
  have e : (V m c main_v14 : S256x256.Idx → EReal)
      = truncf (F := Ideal) .bf16 (transpose S256x256 [1, 0] (extractStridedSlice S256x256 ![0, 0] (m ((c : Thread nD τ).loc main_arg5)) slices_S256x257_S256x256_0_0) transposes_S256x256_S256x256_1_0) bitsLt_bf16_f32 := by
    show StableHlo.after hostOps0 (fun b => m (c, b)) (Proc.devRef .tc main_v14) = _
    after_results <;> rfl
  rw [e, truncf_apply, transpose_ix2_apply, slice2_axis1_apply 0 _ _ j k k.castSucc (by simp)]

/-- Layer 2's aggregated-value column as staged: the argument's last column, as a row. -/
theorem wc2_read (c : Dev nD) (j : Fin 256) :
    V m c main_v15 (ix2 (0 : Fin 1) j) = (m ((c : Thread nD τ).loc main_arg5)) (ix2 j (Fin.last 256)) := by
  have e : (V m c main_v15 : S1x256.Idx → EReal)
      = shapeCast S1x256 (shapeCast S256 (extractStridedSlice S256x1 ![0, 256] (m ((c : Thread nD τ).loc main_arg5)) slices_S256x257_S256x1_0_256) shapeCasts_S256x1_S256) shapeCasts_S256_S1x256 := by
    show StableHlo.after hostOps0 (fun b => m (c, b)) (Proc.devRef .tc main_v15) = _
    after_results <;> rfl
  rw [e, shapeCast_a_1a_apply, col_to_vec_apply, slice2_axis1_apply 256 _ _ j (0 : Fin 1) (Fin.last 256) (by simp)]

/-- Layer 2's bias as staged: the argument, as a row. -/
theorem b2_read (c : Dev nD) (j : Fin 256) :
    V m c main_v16 (ix2 (0 : Fin 1) j) = (m ((c : Thread nD τ).loc main_arg6)) (ix1 j) := by
  have e : (V m c main_v16 : S1x256.Idx → EReal) = shapeCast S1x256 (m ((c : Thread nD τ).loc main_arg6)) shapeCasts_S256_S1x256 := by
    show StableHlo.after hostOps0 (fun b => m (c, b)) (Proc.devRef .tc main_v16) = _
    after_results <;> rfl
  rw [e, shapeCast_a_1a_apply]

/-- Layer 3's matrix as staged: the argument's first 256 columns, transposed. -/
theorem wt3_read (c : Dev nD) (k : Fin 256) (j : Fin 256) :
    V m c main_v21 (ix2 k j) = (m ((c : Thread nD τ).loc main_arg7)) (ix2 j k.castSucc) := by
  have e : (V m c main_v21 : S256x256.Idx → EReal)
      = truncf (F := Ideal) .bf16 (transpose S256x256 [1, 0] (extractStridedSlice S256x256 ![0, 0] (m ((c : Thread nD τ).loc main_arg7)) slices_S256x257_S256x256_0_0) transposes_S256x256_S256x256_1_0) bitsLt_bf16_f32 := by
    show StableHlo.after hostOps0 (fun b => m (c, b)) (Proc.devRef .tc main_v21) = _
    after_results <;> rfl
  rw [e, truncf_apply, transpose_ix2_apply, slice2_axis1_apply 0 _ _ j k k.castSucc (by simp)]

/-- Layer 3's aggregated-value column as staged: the argument's last column, as a row. -/
theorem wc3_read (c : Dev nD) (j : Fin 256) :
    V m c main_v22 (ix2 (0 : Fin 1) j) = (m ((c : Thread nD τ).loc main_arg7)) (ix2 j (Fin.last 256)) := by
  have e : (V m c main_v22 : S1x256.Idx → EReal)
      = shapeCast S1x256 (shapeCast S256 (extractStridedSlice S256x1 ![0, 256] (m ((c : Thread nD τ).loc main_arg7)) slices_S256x257_S256x1_0_256) shapeCasts_S256x1_S256) shapeCasts_S256_S1x256 := by
    show StableHlo.after hostOps0 (fun b => m (c, b)) (Proc.devRef .tc main_v22) = _
    after_results <;> rfl
  rw [e, shapeCast_a_1a_apply, col_to_vec_apply, slice2_axis1_apply 256 _ _ j (0 : Fin 1) (Fin.last 256) (by simp)]

/-- Layer 3's bias as staged: the argument, as a row. -/
theorem b3_read (c : Dev nD) (j : Fin 256) :
    V m c main_v23 (ix2 (0 : Fin 1) j) = (m ((c : Thread nD τ).loc main_arg8)) (ix1 j) := by
  have e : (V m c main_v23 : S1x256.Idx → EReal) = shapeCast S1x256 (m ((c : Thread nD τ).loc main_arg8)) shapeCasts_S256_S1x256 := by
    show StableHlo.after hostOps0 (fun b => m (c, b)) (Proc.devRef .tc main_v23) = _
    after_results <;> rfl
  rw [e, shapeCast_a_1a_apply]

/-- Layer 4's matrix as staged: the argument's first 256 columns, transposed. -/
theorem wt4_read (c : Dev nD) (k : Fin 256) (j : Fin 256) :
    V m c main_v28 (ix2 k j) = (m ((c : Thread nD τ).loc main_arg9)) (ix2 j k.castSucc) := by
  have e : (V m c main_v28 : S256x256.Idx → EReal)
      = truncf (F := Ideal) .bf16 (transpose S256x256 [1, 0] (extractStridedSlice S256x256 ![0, 0] (m ((c : Thread nD τ).loc main_arg9)) slices_S256x257_S256x256_0_0) transposes_S256x256_S256x256_1_0) bitsLt_bf16_f32 := by
    show StableHlo.after hostOps0 (fun b => m (c, b)) (Proc.devRef .tc main_v28) = _
    after_results <;> rfl
  rw [e, truncf_apply, transpose_ix2_apply, slice2_axis1_apply 0 _ _ j k k.castSucc (by simp)]

/-- Layer 4's aggregated-value column as staged: the argument's last column, as a row. -/
theorem wc4_read (c : Dev nD) (j : Fin 256) :
    V m c main_v29 (ix2 (0 : Fin 1) j) = (m ((c : Thread nD τ).loc main_arg9)) (ix2 j (Fin.last 256)) := by
  have e : (V m c main_v29 : S1x256.Idx → EReal)
      = shapeCast S1x256 (shapeCast S256 (extractStridedSlice S256x1 ![0, 256] (m ((c : Thread nD τ).loc main_arg9)) slices_S256x257_S256x1_0_256) shapeCasts_S256x1_S256) shapeCasts_S256_S1x256 := by
    show StableHlo.after hostOps0 (fun b => m (c, b)) (Proc.devRef .tc main_v29) = _
    after_results <;> rfl
  rw [e, shapeCast_a_1a_apply, col_to_vec_apply, slice2_axis1_apply 256 _ _ j (0 : Fin 1) (Fin.last 256) (by simp)]

/-- Layer 4's bias as staged: the argument, as a row. -/
theorem b4_read (c : Dev nD) (j : Fin 256) :
    V m c main_v30 (ix2 (0 : Fin 1) j) = (m ((c : Thread nD τ).loc main_arg10)) (ix1 j) := by
  have e : (V m c main_v30 : S1x256.Idx → EReal) = shapeCast S1x256 (m ((c : Thread nD τ).loc main_arg10)) shapeCasts_S256_S1x256 := by
    show StableHlo.after hostOps0 (fun b => m (c, b)) (Proc.devRef .tc main_v30) = _
    after_results <;> rfl
  rw [e, shapeCast_a_1a_apply]

/-- Layer 5's matrix as staged: the argument's first 256 columns, transposed. -/
theorem wt5_read (c : Dev nD) (k : Fin 256) (j : Fin 256) :
    V m c main_v35 (ix2 k j) = (m ((c : Thread nD τ).loc main_arg11)) (ix2 j k.castSucc) := by
  have e : (V m c main_v35 : S256x256.Idx → EReal)
      = truncf (F := Ideal) .bf16 (transpose S256x256 [1, 0] (extractStridedSlice S256x256 ![0, 0] (m ((c : Thread nD τ).loc main_arg11)) slices_S256x257_S256x256_0_0) transposes_S256x256_S256x256_1_0) bitsLt_bf16_f32 := by
    show StableHlo.after hostOps0 (fun b => m (c, b)) (Proc.devRef .tc main_v35) = _
    after_results <;> rfl
  rw [e, truncf_apply, transpose_ix2_apply, slice2_axis1_apply 0 _ _ j k k.castSucc (by simp)]

/-- Layer 5's aggregated-value column as staged: the argument's last column, as a row. -/
theorem wc5_read (c : Dev nD) (j : Fin 256) :
    V m c main_v36 (ix2 (0 : Fin 1) j) = (m ((c : Thread nD τ).loc main_arg11)) (ix2 j (Fin.last 256)) := by
  have e : (V m c main_v36 : S1x256.Idx → EReal)
      = shapeCast S1x256 (shapeCast S256 (extractStridedSlice S256x1 ![0, 256] (m ((c : Thread nD τ).loc main_arg11)) slices_S256x257_S256x1_0_256) shapeCasts_S256x1_S256) shapeCasts_S256_S1x256 := by
    show StableHlo.after hostOps0 (fun b => m (c, b)) (Proc.devRef .tc main_v36) = _
    after_results <;> rfl
  rw [e, shapeCast_a_1a_apply, col_to_vec_apply, slice2_axis1_apply 256 _ _ j (0 : Fin 1) (Fin.last 256) (by simp)]

/-- Layer 5's bias as staged: the argument, as a row. -/
theorem b5_read (c : Dev nD) (j : Fin 256) :
    V m c main_v37 (ix2 (0 : Fin 1) j) = (m ((c : Thread nD τ).loc main_arg12)) (ix1 j) := by
  have e : (V m c main_v37 : S1x256.Idx → EReal) = shapeCast S1x256 (m ((c : Thread nD τ).loc main_arg12)) shapeCasts_S256_S1x256 := by
    show StableHlo.after hostOps0 (fun b => m (c, b)) (Proc.devRef .tc main_v37) = _
    after_results <;> rfl
  rw [e, shapeCast_a_1a_apply]

/-- Layer 6's matrix as staged: the argument's first 256 columns, transposed. -/
theorem wt6_read (c : Dev nD) (k : Fin 256) (j : Fin 256) :
    V m c main_v42 (ix2 k j) = (m ((c : Thread nD τ).loc main_arg13)) (ix2 j k.castSucc) := by
  have e : (V m c main_v42 : S256x256.Idx → EReal)
      = truncf (F := Ideal) .bf16 (transpose S256x256 [1, 0] (extractStridedSlice S256x256 ![0, 0] (m ((c : Thread nD τ).loc main_arg13)) slices_S256x257_S256x256_0_0) transposes_S256x256_S256x256_1_0) bitsLt_bf16_f32 := by
    show StableHlo.after hostOps0 (fun b => m (c, b)) (Proc.devRef .tc main_v42) = _
    after_results <;> rfl
  rw [e, truncf_apply, transpose_ix2_apply, slice2_axis1_apply 0 _ _ j k k.castSucc (by simp)]

/-- Layer 6's aggregated-value column as staged: the argument's last column, as a row. -/
theorem wc6_read (c : Dev nD) (j : Fin 256) :
    V m c main_v43 (ix2 (0 : Fin 1) j) = (m ((c : Thread nD τ).loc main_arg13)) (ix2 j (Fin.last 256)) := by
  have e : (V m c main_v43 : S1x256.Idx → EReal)
      = shapeCast S1x256 (shapeCast S256 (extractStridedSlice S256x1 ![0, 256] (m ((c : Thread nD τ).loc main_arg13)) slices_S256x257_S256x1_0_256) shapeCasts_S256x1_S256) shapeCasts_S256_S1x256 := by
    show StableHlo.after hostOps0 (fun b => m (c, b)) (Proc.devRef .tc main_v43) = _
    after_results <;> rfl
  rw [e, shapeCast_a_1a_apply, col_to_vec_apply, slice2_axis1_apply 256 _ _ j (0 : Fin 1) (Fin.last 256) (by simp)]

/-- Layer 6's bias as staged: the argument, as a row. -/
theorem b6_read (c : Dev nD) (j : Fin 256) :
    V m c main_v44 (ix2 (0 : Fin 1) j) = (m ((c : Thread nD τ).loc main_arg14)) (ix1 j) := by
  have e : (V m c main_v44 : S1x256.Idx → EReal) = shapeCast S1x256 (m ((c : Thread nD τ).loc main_arg14)) shapeCasts_S256_S1x256 := by
    show StableHlo.after hostOps0 (fun b => m (c, b)) (Proc.devRef .tc main_v44) = _
    after_results <;> rfl
  rw [e, shapeCast_a_1a_apply]

/-- The seventh layer's matrix as staged: the argument transposed. -/
theorem wt7_read (c : Dev nD) (k : Fin 256) (j : Fin 256) :
    V m c main_v46 (ix2 k j) = (m ((c : Thread nD τ).loc main_arg15)) (ix2 j k) := by
  have e : (V m c main_v46 : S256x256.Idx → EReal)
      = truncf (F := Ideal) .bf16 (transpose S256x256 [1, 0] (m ((c : Thread nD τ).loc main_arg15)) transposes_S256x256_S256x256_1_0) bitsLt_bf16_f32 := by
    show StableHlo.after hostOps0 (fun b => m (c, b)) (Proc.devRef .tc main_v46) = _
    after_results <;> rfl
  rw [e, truncf_apply, transpose_ix2_apply]

/-- The seventh layer's bias as staged. -/
theorem b7_read (c : Dev nD) (j : Fin 256) :
    V m c main_v47 (ix2 (0 : Fin 1) j) = (m ((c : Thread nD τ).loc main_arg16)) (ix1 j) := by
  have e : (V m c main_v47 : S1x256.Idx → EReal) = shapeCast S1x256 (m ((c : Thread nD τ).loc main_arg16)) shapeCasts_S256_S1x256 := by
    show StableHlo.after hostOps0 (fun b => m (c, b)) (Proc.devRef .tc main_v47) = _
    after_results <;> rfl
  rw [e, shapeCast_a_1a_apply]

/-- The last layer's matrix as staged, at lane 0: the argument's one row (the other 127 lanes are the padding). -/
theorem wt8_read (c : Dev nD) (k : Fin 256) :
    V m c main_v55 (ix2 k (0 : Fin 128)) = (m ((c : Thread nD τ).loc main_arg17)) (ix2 (0 : Fin 1) k) := by
  have e : (V m c main_v55 : S256x128.Idx → EReal)
      = truncf (F := Ideal) .bf16 (transpose S256x128 [1, 0]
          (Host.scatter scatter_S128x256_S1_S1x256_01_n_0_0 (fun _ b => b)
            (broadcastInDim S128x256 ![] bcast_S_S128x256 (constant (F := Ideal) S_ .f32 0x00000000#32))
            (broadcastInDim S1 ![] bcast_S_S1 (constantI S_ 32 0#32)) (m ((c : Thread nD τ).loc main_arg17)))
          transposes_S128x256_S256x128_1_0) bitsLt_bf16_f32 := by
    show StableHlo.after hostOps0 (fun b => m (c, b)) (Proc.devRef .tc main_v55) = _
    after_results <;> rfl
  rw [e, truncf_apply, transpose_ix2_apply, Cert.PadScatter.pad_rows_apply _ (broadcastInDim S1 ![] bcast_S_S1 (constantI S_ 32 0#32)) (fun _ => rfl)]

/-- The last layer's bias as staged, at lane 0: the argument's one entry. -/
theorem b8_read (c : Dev nD) :
    V m c main_v56 (ix2 (0 : Fin 1) (0 : Fin 128)) = (m ((c : Thread nD τ).loc main_arg18)) (ix1 (0 : Fin 1)) := by
  have e : (V m c main_v56 : S1x128.Idx → EReal)
      = shapeCast S1x128 (Host.scatter scatter_S128_S1_S1_0_n_0_0 (fun _ b => b)
            (broadcastInDim S128 ![] bcast_S_S128 (constant (F := Ideal) S_ .f32 0x00000000#32))
            (broadcastInDim S1 ![] bcast_S_S1 (constantI S_ 32 0#32)) (m ((c : Thread nD τ).loc main_arg18))) shapeCasts_S128_S1x128 := by
    show StableHlo.after hostOps0 (fun b => m (c, b)) (Proc.devRef .tc main_v56) = _
    after_results <;> rfl
  rw [e, shapeCast_a_1a_apply, Cert.PadScatter.pad_vec_apply _ (broadcastInDim S1 ![] bcast_S_S1 (constantI S_ 32 0#32)) (fun _ => rfl)]

/-- The aggregated edge values as staged: one scatter-add of the edge features into zeros at the edges' nodes. -/
theorem aggr_read (c : Dev nD) :
    (V m c main_v2 : S100000x1.Idx → EReal)
      = Host.scatterAdd scatter_S100000x1_S3200000x1_S3200000x1_1_0_0_1
          (broadcastInDim S100000x1 ![] bcast_S_S100000x1 (constant (F := Ideal) S_ .f32 0x00000000#32))
          (broadcastInDim S3200000x1 ![0] bcast_S3200000_S3200000x1_0 (m ((c : Thread nD τ).loc main_arg2))) (m ((c : Thread nD τ).loc main_arg1)) := by
  show StableHlo.after hostOps0 (fun b => m (c, b)) (Proc.devRef .tc main_v2) = _
  after_results <;> rfl

end Cert.KernelHost

end
-- ==== Proof.KernelRun.lean ====
/- The kernel's run, read: its result holds, at node `r`, the joined network (SageSpec) of the node's feature
   row, of its aggregated edge value and of the argument weights.

   After the region the program keeps lane 0 of the `[100000, 128]` output. There the staged last layer is the
   argument's own (the other lanes are padding), every other staged weight is a re-arrangement of an argument,
   and the split network over those re-arrangements is the joined network (SageSpec's law). -/
import proofs.«160156_j76192719831691_2_alg».proof.Proof.KernelBlocks
import proofs.«160156_j76192719831691_2_alg».proof.Proof.KernelHost
import Idealize.ShloMosaic.Lib.StableHlo.Run

set_option maxRecDepth 16384

noncomputable section

namespace Cert.KernelValue

open Cert.KernelIdeal Cert.KernelIdeal.Gen Cert.KernelIdeal.GenP Idealize.ShloMosaic Idealize.ShloMosaic.TcCoe Idealize.SL.Sem
open Idealize.ShloMosaic.ValueIdx Cert.SageSpec Cert.KernelPayload Cert.KernelHost Idealize.ShloMosaic.StableHlo
open Idealize.ShloMosaic.Pipeline (Dat)

variable (m : (ℓ : Loc nD τ sig) → Buf (Elt Ideal) ℓ) (ρ : Dev nD → PrngReg)

/-- The argument weights as the joined network reads them: matrix entry (output `j`, input `k`), bias entry `j`. -/
def argW (c : Dev nD) : JoinedW where
  w1 := fun j k => (m ((c : Thread nD τ).loc main_arg3)) (ix2 j k)
  b1 := fun j => (m ((c : Thread nD τ).loc main_arg4)) (ix1 j)
  w2 := fun j k => (m ((c : Thread nD τ).loc main_arg5)) (ix2 j k)
  b2 := fun j => (m ((c : Thread nD τ).loc main_arg6)) (ix1 j)
  w3 := fun j k => (m ((c : Thread nD τ).loc main_arg7)) (ix2 j k)
  b3 := fun j => (m ((c : Thread nD τ).loc main_arg8)) (ix1 j)
  w4 := fun j k => (m ((c : Thread nD τ).loc main_arg9)) (ix2 j k)
  b4 := fun j => (m ((c : Thread nD τ).loc main_arg10)) (ix1 j)
  w5 := fun j k => (m ((c : Thread nD τ).loc main_arg11)) (ix2 j k)
  b5 := fun j => (m ((c : Thread nD τ).loc main_arg12)) (ix1 j)
  w6 := fun j k => (m ((c : Thread nD τ).loc main_arg13)) (ix2 j k)
  b6 := fun j => (m ((c : Thread nD τ).loc main_arg14)) (ix1 j)
  w7 := fun j k => (m ((c : Thread nD τ).loc main_arg15)) (ix2 j k)
  b7 := fun j => (m ((c : Thread nD τ).loc main_arg16)) (ix1 j)
  w8 := fun q k => (m ((c : Thread nD τ).loc main_arg17)) (ix2 q k)
  b8 := fun q => (m ((c : Thread nD τ).loc main_arg18)) (ix1 q)

/-- The node of a result index. -/
def nodeOf (i : S100000x1.Idx) : Fin 100000 := i 0

/-- The kernel program's result: at node `r`, the joined network of the node's features and aggregated value. -/
def result (c : Dev nD) : S100000x1.Idx → EReal :=
  fun i => joinedNet (argW m c) (V m c main_v2 (ix2 (nodeOf i) (0 : Fin 1))) (fun k => (m ((c : Thread nD τ).loc main_arg0)) (ix2 (nodeOf i) k))

/-- Lane 0 of `wholeOut` at node `r` is the joined network of node `r`, for ANY staged arrays that read, entry by
    entry, as the re-arrangements of the joined weights `W` that the wrapper makes: each matrix's first columns
    transposed, its last column as a row, each bias as a row, and a last layer whose lane 0 is `W`'s. -/
theorem lane0_of (W : JoinedW) (a0 : S100000x128.Idx → EReal) (a1 : S100000x1.Idx → EReal) (x2 : S128x256.Idx → EReal) (x3 : S1x256.Idx → EReal) (x4 : S1x256.Idx → EReal) (x5 : S256x256.Idx → EReal) (x6 : S1x256.Idx → EReal) (x7 : S1x256.Idx → EReal) (x8 : S256x256.Idx → EReal) (x9 : S1x256.Idx → EReal) (x10 : S1x256.Idx → EReal) (x11 : S256x256.Idx → EReal) (x12 : S1x256.Idx → EReal) (x13 : S1x256.Idx → EReal) (x14 : S256x256.Idx → EReal) (x15 : S1x256.Idx → EReal) (x16 : S1x256.Idx → EReal) (x17 : S256x256.Idx → EReal) (x18 : S1x256.Idx → EReal) (x19 : S1x256.Idx → EReal) (x20 : S256x256.Idx → EReal) (x21 : S1x256.Idx → EReal) (x22 : S256x128.Idx → EReal) (x23 : S1x128.Idx → EReal)
    (feat : Fin 100000 → Fin 128 → EReal) (h0 : ∀ r k, a0 (ix2 r k) = feat r k)
    (h2 : ∀ (k : Fin 128) (j : Fin 256), x2 (ix2 k j) = W.w1 j k.castSucc) (h3 : ∀ j : Fin 256, x3 (ix2 (0 : Fin 1) j) = W.w1 j (Fin.last 128)) (h4 : ∀ j : Fin 256, x4 (ix2 (0 : Fin 1) j) = W.b1 j)
    (h5 : ∀ (k : Fin 256) (j : Fin 256), x5 (ix2 k j) = W.w2 j k.castSucc) (h6 : ∀ j : Fin 256, x6 (ix2 (0 : Fin 1) j) = W.w2 j (Fin.last 256)) (h7 : ∀ j : Fin 256, x7 (ix2 (0 : Fin 1) j) = W.b2 j)
    (h8 : ∀ (k : Fin 256) (j : Fin 256), x8 (ix2 k j) = W.w3 j k.castSucc) (h9 : ∀ j : Fin 256, x9 (ix2 (0 : Fin 1) j) = W.w3 j (Fin.last 256)) (h10 : ∀ j : Fin 256, x10 (ix2 (0 : Fin 1) j) = W.b3 j)
    (h11 : ∀ (k : Fin 256) (j : Fin 256), x11 (ix2 k j) = W.w4 j k.castSucc) (h12 : ∀ j : Fin 256, x12 (ix2 (0 : Fin 1) j) = W.w4 j (Fin.last 256)) (h13 : ∀ j : Fin 256, x13 (ix2 (0 : Fin 1) j) = W.b4 j)
    (h14 : ∀ (k : Fin 256) (j : Fin 256), x14 (ix2 k j) = W.w5 j k.castSucc) (h15 : ∀ j : Fin 256, x15 (ix2 (0 : Fin 1) j) = W.w5 j (Fin.last 256)) (h16 : ∀ j : Fin 256, x16 (ix2 (0 : Fin 1) j) = W.b5 j)
    (h17 : ∀ (k : Fin 256) (j : Fin 256), x17 (ix2 k j) = W.w6 j k.castSucc) (h18 : ∀ j : Fin 256, x18 (ix2 (0 : Fin 1) j) = W.w6 j (Fin.last 256)) (h19 : ∀ j : Fin 256, x19 (ix2 (0 : Fin 1) j) = W.b6 j)
    (h20 : ∀ (k : Fin 256) (j : Fin 256), x20 (ix2 k j) = W.w7 j k) (h21 : ∀ j : Fin 256, x21 (ix2 (0 : Fin 1) j) = W.b7 j)
    (h22 : ∀ k : Fin 256, x22 (ix2 k (0 : Fin 128)) = W.w8 0 k) (h23 : x23 (ix2 (0 : Fin 1) (0 : Fin 128)) = W.b8 0)
    (r : Fin 100000) :
    wholeOut a0 a1 x2 x3 x4 x5 x6 x7 x8 x9 x10 x11 x12 x13 x14 x15 x16 x17 x18 x19 x20 x21 x22 x23 (ix2 r (0 : Fin 128)) = joinedNet W (a1 (ix2 r (0 : Fin 1))) (fun k => feat r k) := by
  rw [wholeOut_apply]
  have hW : blockW x2 x3 x4 x5 x6 x7 x8 x9 x10 x11 x12 x13 x14 x15 x16 x17 x18 x19 x20 x21 x22 x23
      = W.split 128 (fun k q => x22 (ix2 k q)) (fun q => x23 (ix2 (0 : Fin 1) q)) := by
    unfold blockW JoinedW.split
    simp only [h2, h3, h4, h5, h6, h7, h8, h9, h10, h11, h12, h13, h14, h15, h16, h17, h18, h19, h20, h21]
  rw [hW]
  simp only [h0]
  exact splitNet_eq_joinedNet W 128 (by decide) _ _ h22 h23 _ _

/-- After the frame run the result buffer is `result`: the kept lane of the output array. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v58) = result m c := by
  refine ((h c).2 main_v58 (Pipeline.mem_restRefs_of main_v58 (by decide) (by decide))).trans ?_
  unfold Pipeline.afterTail₀
  show StableHlo.after hostOps1 _ (Proc.devRef .tc main_v58) = _
  after_results
  refine (congrArg (fun X : S100000x128.Idx → EReal => extractStridedSlice S100000x1 ![0, 0] X slices_S100000x128_S100000x1_0_0)
    ((Pipeline.withArrays_arr spec0 launch0.win.arr_inj c (V0 m c) (fun w => (dats m 0 c).arrAt w cfg0.N) 24).trans (final m c))).trans ?_
  funext i
  obtain ⟨r, u, rfl⟩ : ∃ (r : Fin 100000) (u : Fin 1), i = ix2 r u := ⟨i 0, i 1, eq_ix2 i⟩
  rw [slice2_axis1_apply 0 _ _ r u (0 : Fin 128) (by have := u.isLt; simp <;> omega)]
  exact lane0_of (argW m c) (V m c (Pipeline.arrRef spec0 0)) (V m c main_v2) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 15)) (V m c (Pipeline.arrRef spec0 16)) (V m c (Pipeline.arrRef spec0 17)) (V m c (Pipeline.arrRef spec0 18)) (V m c (Pipeline.arrRef spec0 19)) (V m c (Pipeline.arrRef spec0 20)) (V m c (Pipeline.arrRef spec0 21)) (V m c (Pipeline.arrRef spec0 22)) (V m c (Pipeline.arrRef spec0 23))
    (fun r k => (m ((c : Thread nD τ).loc main_arg0)) (ix2 r k)) (fun r k => congrFun (V_main_arg0 m c) (ix2 r k))
    (fun k j => wt1_read m c k j) (fun j => wc1_read m c j) (fun j => b1_read m c j)
    (fun k j => wt2_read m c k j) (fun j => wc2_read m c j) (fun j => b2_read m c j)
    (fun k j => wt3_read m c k j) (fun j => wc3_read m c j) (fun j => b3_read m c j)
    (fun k j => wt4_read m c k j) (fun j => wc4_read m c j) (fun j => b4_read m c j)
    (fun k j => wt5_read m c k j) (fun j => wc5_read m c j) (fun j => b5_read m c j)
    (fun k j => wt6_read m c k j) (fun j => wc6_read m c j) (fun j => b6_read m c j)
    (fun k j => wt7_read m c k j) (fun j => b7_read m c j) (fun k => wt8_read m c k) (b8_read m c) r

/-- THE KERNEL'S RUN: it terminates with the result buffer at `result` and the arguments unchanged. -/
theorem run : θ_run defs (onTc (τ := τ) (main (F := Ideal))) ⟨m, fun _ => 0, ρ⟩ fun r => ∀ c : Dev nD,
      r.2.mem ((c.tc : Thread nD τ).loc main_v58) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨post_result m r h c,
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c))⟩)
    (run_main m ρ)

end Cert.KernelValue

end
-- ==== Proof.RefIsSpec.lean ====
/- The reference program's result, read row by row: at node `r` it is the joined network (SageSpec) of the
   node's feature row, the node's aggregated edge value and the argument weights.

   Each layer of the reference joins the previous rows with the aggregated column (a concatenation along the
   feature axis), multiplies by the transposed weight matrix (one sum over the joined width), adds the bias
   broadcast over the nodes and rectifies. Read at `(r, j)` that is `joinedLayer` of row `r` of its input. -/
import proofs.«160156_j76192719831691_2_alg».proof.Proof.ReferenceReadP
import proofs.«160156_j76192719831691_2_alg».proof.Proof.SageSpec
import Idealize.ShloMosaic.Lib.Pipeline.Value
import Idealize.ShloMosaic.Lib.ValueIdx
import Idealize.ShloMosaic.PureOps.Ideal.Laws

noncomputable section

namespace Cert.RefSpec

open Cert.ReferenceIdeal Cert.ReferenceIdeal.ReadP Idealize.ShloMosaic Idealize.ShloMosaic.ValueIdx Cert.SageSpec

/-- The argument weights as the joined network reads them: matrix entry (output `j`, input `k`), bias entry `j`. -/
def refW (x3 : (⟨S256x129, .f32⟩ : BufTy).Contents (Elt Ideal)) (x4 : (⟨S256, .f32⟩ : BufTy).Contents (Elt Ideal)) (x5 : (⟨S256x257, .f32⟩ : BufTy).Contents (Elt Ideal)) (x6 : (⟨S256, .f32⟩ : BufTy).Contents (Elt Ideal)) (x7 : (⟨S256x257, .f32⟩ : BufTy).Contents (Elt Ideal)) (x8 : (⟨S256, .f32⟩ : BufTy).Contents (Elt Ideal)) (x9 : (⟨S256x257, .f32⟩ : BufTy).Contents (Elt Ideal)) (x10 : (⟨S256, .f32⟩ : BufTy).Contents (Elt Ideal)) (x11 : (⟨S256x257, .f32⟩ : BufTy).Contents (Elt Ideal)) (x12 : (⟨S256, .f32⟩ : BufTy).Contents (Elt Ideal)) (x13 : (⟨S256x257, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal)) : JoinedW where
  w1 := fun j k => x3 (ix2 j k)
  b1 := fun j => x4 (ix1 j)
  w2 := fun j k => x5 (ix2 j k)
  b2 := fun j => x6 (ix1 j)
  w3 := fun j k => x7 (ix2 j k)
  b3 := fun j => x8 (ix1 j)
  w4 := fun j k => x9 (ix2 j k)
  b4 := fun j => x10 (ix1 j)
  w5 := fun j k => x11 (ix2 j k)
  b5 := fun j => x12 (ix1 j)
  w6 := fun j k => x13 (ix2 j k)
  b6 := fun j => x14 (ix1 j)
  w7 := fun j k => x15 (ix2 j k)
  b7 := fun j => x16 (ix1 j)
  w8 := fun q k => x17 (ix2 q k)
  b8 := fun q => x18 (ix1 q)

section Layers

variable (x0 : (⟨S100000x128, .f32⟩ : BufTy).Contents (Elt Ideal))
  (x1 : (⟨S3200000x1, .f32⟩ : BufTy).Contents (Elt Ideal))
  (x2 : (⟨S3200000, .i32⟩ : BufTy).Contents (Elt Ideal))
  (x3 : (⟨S256x129, .f32⟩ : BufTy).Contents (Elt Ideal))
  (x4 : (⟨S256, .f32⟩ : BufTy).Contents (Elt Ideal))
  (x5 : (⟨S256x257, .f32⟩ : BufTy).Contents (Elt Ideal))
  (x6 : (⟨S256, .f32⟩ : BufTy).Contents (Elt Ideal))
  (x7 : (⟨S256x257, .f32⟩ : BufTy).Contents (Elt Ideal))
  (x8 : (⟨S256, .f32⟩ : BufTy).Contents (Elt Ideal))
  (x9 : (⟨S256x257, .f32⟩ : BufTy).Contents (Elt Ideal))
  (x10 : (⟨S256, .f32⟩ : BufTy).Contents (Elt Ideal))
  (x11 : (⟨S256x257, .f32⟩ : BufTy).Contents (Elt Ideal))
  (x12 : (⟨S256, .f32⟩ : BufTy).Contents (Elt Ideal))
  (x13 : (⟨S256x257, .f32⟩ : BufTy).Contents (Elt Ideal))
  (x14 : (⟨S256, .f32⟩ : BufTy).Contents (Elt Ideal))
  (x15 : (⟨S256x256, .f32⟩ : BufTy).Contents (Elt Ideal))
  (x16 : (⟨S256, .f32⟩ : BufTy).Contents (Elt Ideal))
  (x17 : (⟨S1x256, .f32⟩ : BufTy).Contents (Elt Ideal))
  (x18 : (⟨S1, .f32⟩ : BufTy).Contents (Elt Ideal))

/-- A row joined with the aggregated column, read at column `k` of row `r`: the last column holds the
    aggregated value of the row, every earlier column the row's own entry. -/
theorem concat_row {n : ℕ} (H : (⟨2, ![100000, n]⟩ : Shape).Idx → EReal) (A : (⟨2, ![100000, 1]⟩ : Shape).Idx → EReal)
    (h : Shape.Concatenates [(⟨2, ![100000, n]⟩ : Shape), ⟨2, ![100000, 1]⟩] ⟨2, ![100000, n + 1]⟩ 1)
    (r : Fin 100000) (k : Fin (n + 1)) :
    concatenate (⟨2, ![100000, n + 1]⟩ : Shape) 1 [⟨_, H⟩, ⟨_, A⟩] h (ix2 r k)
      = Fin.lastCases (A (ix2 r 0)) (fun k' => H (ix2 r k')) k := by
  induction k using Fin.lastCases with
  | last =>
    rw [Fin.lastCases_last]
    exact concatenate_pair_apply_right 1 H A h (ix2 r (Fin.last n)) rfl rfl (ix2 r 0)
      (fun b hb => by
        match b with
        | ⟨0, _⟩ => rfl
        | ⟨1, _⟩ => exact absurd rfl hb)
      (Nat.zero_add n)
  | cast k' =>
    rw [Fin.lastCases_castSucc]
    exact concatenate_pair_apply_left 1 H A h (ix2 r k'.castSucc) rfl (ix2 r k')
      (fun b => by
        match b with
        | ⟨0, _⟩ => rfl
        | ⟨1, _⟩ => rfl)

/-- The first layer of the reference at `(r, j)`: the joined layer of row `r` of its input. -/
theorem layer1_read (r : Fin 100000) (j : Fin 256) :
    val_main_v9 (F := Ideal) x0 x1 x2 x3 x4 (ix2 r j)
      = joinedLayer (fun j k => x3 (ix2 j k)) (fun j => x4 (ix1 j)) (val_main_v2 (F := Ideal) x1 x2 (ix2 r 0)) (fun k => x0 (ix2 r k)) j := by
  rw [val_main_v9_apply, val_main_v8_apply, val_main_v5_apply, val_main_v7_apply, val_main_v6_apply,
    val_main_call0_v0_apply, val_main_call0_cst_apply]
  unfold joinedLayer
  refine congrArg₂ max (congrArg₂ (· + ·) (Finset.sum_congr rfl fun k _ => ?_) (congrArg x4 ?_)) rfl
  · rw [val_main_v4_apply]
    refine congrArg₂ (· * ·) ?_ (congrArg x3 ?_)
    · have e : lidx_main_v5 (ix2 r j) k = ix2 r k := funext fun a => by match a with | ⟨0, _⟩ => rfl | ⟨1, _⟩ => rfl
      rw [e]
      exact concat_row (n := 128) x0 (val_main_v2 (F := Ideal) x1 x2) _ r k
    · exact funext fun a => by match a with | ⟨0, _⟩ => rfl | ⟨1, _⟩ => rfl
  · exact funext fun a => by match a with | ⟨0, _⟩ => rfl

/-- The second layer of the reference at `(r, j)`: the joined layer of row `r` of its input. -/
theorem layer2_read (r : Fin 100000) (j : Fin 256) :
    val_main_v16 (F := Ideal) x0 x1 x2 x3 x4 x5 x6 (ix2 r j)
      = joinedLayer (fun j k => x5 (ix2 j k)) (fun j => x6 (ix1 j)) (val_main_v2 (F := Ideal) x1 x2 (ix2 r 0)) (fun k => val_main_v9 (F := Ideal) x0 x1 x2 x3 x4 (ix2 r k)) j := by
  rw [val_main_v16_apply, val_main_v15_apply, val_main_v12_apply, val_main_v14_apply, val_main_v13_apply,
    val_main_call1_v0_apply, val_main_call1_cst_apply]
  unfold joinedLayer
  refine congrArg₂ max (congrArg₂ (· + ·) (Finset.sum_congr rfl fun k _ => ?_) (congrArg x6 ?_)) rfl
  · rw [val_main_v11_apply]
    refine congrArg₂ (· * ·) ?_ (congrArg x5 ?_)
    · have e : lidx_main_v12 (ix2 r j) k = ix2 r k := funext fun a => by match a with | ⟨0, _⟩ => rfl | ⟨1, _⟩ => rfl
      rw [e]
      exact concat_row (n := 256) (val_main_v9 (F := Ideal) x0 x1 x2 x3 x4) (val_main_v2 (F := Ideal) x1 x2) _ r k
    · exact funext fun a => by match a with | ⟨0, _⟩ => rfl | ⟨1, _⟩ => rfl
  · exact funext fun a => by match a with | ⟨0, _⟩ => rfl

/-- The third layer of the reference at `(r, j)`: the joined layer of row `r` of its input. -/
theorem layer3_read (r : Fin 100000) (j : Fin 256) :
    val_main_v23 (F := Ideal) x0 x1 x2 x3 x4 x5 x6 x7 x8 (ix2 r j)
      = joinedLayer (fun j k => x7 (ix2 j k)) (fun j => x8 (ix1 j)) (val_main_v2 (F := Ideal) x1 x2 (ix2 r 0)) (fun k => val_main_v16 (F := Ideal) x0 x1 x2 x3 x4 x5 x6 (ix2 r k)) j := by
  rw [val_main_v23_apply, val_main_v22_apply, val_main_v19_apply, val_main_v21_apply, val_main_v20_apply,
    val_main_call2_v0_apply, val_main_call2_cst_apply]
  unfold joinedLayer
  refine congrArg₂ max (congrArg₂ (· + ·) (Finset.sum_congr rfl fun k _ => ?_) (congrArg x8 ?_)) rfl
  · rw [val_main_v18_apply]
    refine congrArg₂ (· * ·) ?_ (congrArg x7 ?_)
    · have e : lidx_main_v19 (ix2 r j) k = ix2 r k := funext fun a => by match a with | ⟨0, _⟩ => rfl | ⟨1, _⟩ => rfl
      rw [e]
      exact concat_row (n := 256) (val_main_v16 (F := Ideal) x0 x1 x2 x3 x4 x5 x6) (val_main_v2 (F := Ideal) x1 x2) _ r k
    · exact funext fun a => by match a with | ⟨0, _⟩ => rfl | ⟨1, _⟩ => rfl
  · exact funext fun a => by match a with | ⟨0, _⟩ => rfl

/-- The fourth layer of the reference at `(r, j)`: the joined layer of row `r` of its input. -/
theorem layer4_read (r : Fin 100000) (j : Fin 256) :
    val_main_v30 (F := Ideal) x0 x1 x2 x3 x4 x5 x6 x7 x8 x9 x10 (ix2 r j)
      = joinedLayer (fun j k => x9 (ix2 j k)) (fun j => x10 (ix1 j)) (val_main_v2 (F := Ideal) x1 x2 (ix2 r 0)) (fun k => val_main_v23 (F := Ideal) x0 x1 x2 x3 x4 x5 x6 x7 x8 (ix2 r k)) j := by
  rw [val_main_v30_apply, val_main_v29_apply, val_main_v26_apply, val_main_v28_apply, val_main_v27_apply,
    val_main_call3_v0_apply, val_main_call3_cst_apply]
  unfold joinedLayer
  refine congrArg₂ max (congrArg₂ (· + ·) (Finset.sum_congr rfl fun k _ => ?_) (congrArg x10 ?_)) rfl
  · rw [val_main_v25_apply]
    refine congrArg₂ (· * ·) ?_ (congrArg x9 ?_)
    · have e : lidx_main_v26 (ix2 r j) k = ix2 r k := funext fun a => by match a with | ⟨0, _⟩ => rfl | ⟨1, _⟩ => rfl
      rw [e]
      exact concat_row (n := 256) (val_main_v23 (F := Ideal) x0 x1 x2 x3 x4 x5 x6 x7 x8) (val_main_v2 (F := Ideal) x1 x2) _ r k
    · exact funext fun a => by match a with | ⟨0, _⟩ => rfl | ⟨1, _⟩ => rfl
  · exact funext fun a => by match a with | ⟨0, _⟩ => rfl

/-- The fifth layer of the reference at `(r, j)`: the joined layer of row `r` of its input. -/
theorem layer5_read (r : Fin 100000) (j : Fin 256) :
    val_main_v37 (F := Ideal) x0 x1 x2 x3 x4 x5 x6 x7 x8 x9 x10 x11 x12 (ix2 r j)
      = joinedLayer (fun j k => x11 (ix2 j k)) (fun j => x12 (ix1 j)) (val_main_v2 (F := Ideal) x1 x2 (ix2 r 0)) (fun k => val_main_v30 (F := Ideal) x0 x1 x2 x3 x4 x5 x6 x7 x8 x9 x10 (ix2 r k)) j := by
  rw [val_main_v37_apply, val_main_v36_apply, val_main_v33_apply, val_main_v35_apply, val_main_v34_apply,
    val_main_call4_v0_apply, val_main_call4_cst_apply]
  unfold joinedLayer
  refine congrArg₂ max (congrArg₂ (· + ·) (Finset.sum_congr rfl fun k _ => ?_) (congrArg x12 ?_)) rfl
  · rw [val_main_v32_apply]
    refine congrArg₂ (· * ·) ?_ (congrArg x11 ?_)
    · have e : lidx_main_v33 (ix2 r j) k = ix2 r k := funext fun a => by match a with | ⟨0, _⟩ => rfl | ⟨1, _⟩ => rfl
      rw [e]
      exact concat_row (n := 256) (val_main_v30 (F := Ideal) x0 x1 x2 x3 x4 x5 x6 x7 x8 x9 x10) (val_main_v2 (F := Ideal) x1 x2) _ r k
    · exact funext fun a => by match a with | ⟨0, _⟩ => rfl | ⟨1, _⟩ => rfl
  · exact funext fun a => by match a with | ⟨0, _⟩ => rfl

/-- The sixth layer of the reference at `(r, j)`: the joined layer of row `r` of its input. -/
theorem layer6_read (r : Fin 100000) (j : Fin 256) :
    val_main_v44 (F := Ideal) x0 x1 x2 x3 x4 x5 x6 x7 x8 x9 x10 x11 x12 x13 x14 (ix2 r j)
      = joinedLayer (fun j k => x13 (ix2 j k)) (fun j => x14 (ix1 j)) (val_main_v2 (F := Ideal) x1 x2 (ix2 r 0)) (fun k => val_main_v37 (F := Ideal) x0 x1 x2 x3 x4 x5 x6 x7 x8 x9 x10 x11 x12 (ix2 r k)) j := by
  rw [val_main_v44_apply, val_main_v43_apply, val_main_v40_apply, val_main_v42_apply, val_main_v41_apply,
    val_main_call5_v0_apply, val_main_call5_cst_apply]
  unfold joinedLayer
  refine congrArg₂ max (congrArg₂ (· + ·) (Finset.sum_congr rfl fun k _ => ?_) (congrArg x14 ?_)) rfl
  · rw [val_main_v39_apply]
    refine congrArg₂ (· * ·) ?_ (congrArg x13 ?_)
    · have e : lidx_main_v40 (ix2 r j) k = ix2 r k := funext fun a => by match a with | ⟨0, _⟩ => rfl | ⟨1, _⟩ => rfl
      rw [e]
      exact concat_row (n := 256) (val_main_v37 (F := Ideal) x0 x1 x2 x3 x4 x5 x6 x7 x8 x9 x10 x11 x12) (val_main_v2 (F := Ideal) x1 x2) _ r k
    · exact funext fun a => by match a with | ⟨0, _⟩ => rfl | ⟨1, _⟩ => rfl
  · exact funext fun a => by match a with | ⟨0, _⟩ => rfl

/-- The seventh layer of the reference at `(r, j)`: the plain rectified layer of row `r` of its input. -/
theorem dense_read (r : Fin 100000) (j : Fin 256) :
    val_main_v50 (F := Ideal) x0 x1 x2 x3 x4 x5 x6 x7 x8 x9 x10 x11 x12 x13 x14 x15 x16 (ix2 r j)
      = denseLayer (fun k j => x15 (ix2 j k)) (fun j => x16 (ix1 j)) (fun k => val_main_v44 (F := Ideal) x0 x1 x2 x3 x4 x5 x6 x7 x8 x9 x10 x11 x12 x13 x14 (ix2 r k)) j := by
  rw [val_main_v50_apply, val_main_v49_apply, val_main_v46_apply, val_main_v48_apply, val_main_v47_apply,
    val_main_call6_v0_apply, val_main_call6_cst_apply]
  unfold denseLayer
  refine congrArg₂ max (congrArg₂ (· + ·) (Finset.sum_congr rfl fun k _ => ?_) (congrArg x16 ?_)) rfl
  · rw [val_main_v45_apply]
    refine congrArg₂ (· * ·) (congrArg (val_main_v44 (F := Ideal) x0 x1 x2 x3 x4 x5 x6 x7 x8 x9 x10 x11 x12 x13 x14) ?_) (congrArg x15 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-- The last, linear map of the reference at row `r`: the head layer of row `r` of its input, at its one output. -/
theorem head_read (r : Fin 100000) :
    val_main_v55 (F := Ideal) x0 x1 x2 x3 x4 x5 x6 x7 x8 x9 x10 x11 x12 x13 x14 x15 x16 x17 x18 (ix2 r 0)
      = headLayer (fun k q => x17 (ix2 q k)) (fun q => x18 (ix1 q)) (fun k => val_main_v50 (F := Ideal) x0 x1 x2 x3 x4 x5 x6 x7 x8 x9 x10 x11 x12 x13 x14 x15 x16 (ix2 r k)) 0 := by
  rw [val_main_v55_apply, val_main_v52_apply, val_main_v54_apply, val_main_v53_apply]
  unfold headLayer
  refine congrArg₂ (· + ·) (Finset.sum_congr rfl fun k _ => ?_) (congrArg x18 ?_)
  · rw [val_main_v51_apply]
    refine congrArg₂ (· * ·) (congrArg (val_main_v50 (F := Ideal) x0 x1 x2 x3 x4 x5 x6 x7 x8 x9 x10 x11 x12 x13 x14 x15 x16) ?_) (congrArg x17 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

end Layers

/-- THE REFERENCE, READ: its result at node `r` is the joined network of row `r` of the node features and of the
    aggregated edge value of node `r` (the reference's own scatter-add stage, left unopened). -/
theorem ref_is_spec (x0 : (⟨S100000x128, .f32⟩ : BufTy).Contents (Elt Ideal)) (x1 : (⟨S3200000x1, .f32⟩ : BufTy).Contents (Elt Ideal)) (x2 : (⟨S3200000, .i32⟩ : BufTy).Contents (Elt Ideal)) (x3 : (⟨S256x129, .f32⟩ : BufTy).Contents (Elt Ideal)) (x4 : (⟨S256, .f32⟩ : BufTy).Contents (Elt Ideal)) (x5 : (⟨S256x257, .f32⟩ : BufTy).Contents (Elt Ideal)) (x6 : (⟨S256, .f32⟩ : BufTy).Contents (Elt Ideal)) (x7 : (⟨S256x257, .f32⟩ : BufTy).Contents (Elt Ideal)) (x8 : (⟨S256, .f32⟩ : BufTy).Contents (Elt Ideal)) (x9 : (⟨S256x257, .f32⟩ : BufTy).Contents (Elt Ideal)) (x10 : (⟨S256, .f32⟩ : BufTy).Contents (Elt Ideal)) (x11 : (⟨S256x257, .f32⟩ : BufTy).Contents (Elt Ideal)) (x12 : (⟨S256, .f32⟩ : BufTy).Contents (Elt Ideal)) (x13 : (⟨S256x257, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal)) (r : Fin 100000) :
    val_main_v55 (F := Ideal) x0 x1 x2 x3 x4 x5 x6 x7 x8 x9 x10 x11 x12 x13 x14 x15 x16 x17 x18 (ix2 r 0)
      = joinedNet (refW x3 x4 x5 x6 x7 x8 x9 x10 x11 x12 x13 x14 x15 x16 x17 x18) (val_main_v2 (F := Ideal) x1 x2 (ix2 r 0)) (fun k => x0 (ix2 r k)) := by
  rw [head_read x0 x1 x2 x3 x4 x5 x6 x7 x8 x9 x10 x11 x12 x13 x14 x15 x16 x17 x18 r,
    funext fun k => dense_read x0 x1 x2 x3 x4 x5 x6 x7 x8 x9 x10 x11 x12 x13 x14 x15 x16 r k,
    funext fun k => layer6_read x0 x1 x2 x3 x4 x5 x6 x7 x8 x9 x10 x11 x12 x13 x14 r k,
    funext fun k => layer5_read x0 x1 x2 x3 x4 x5 x6 x7 x8 x9 x10 x11 x12 r k,
    funext fun k => layer4_read x0 x1 x2 x3 x4 x5 x6 x7 x8 x9 x10 r k,
    funext fun k => layer3_read x0 x1 x2 x3 x4 x5 x6 x7 x8 r k,
    funext fun k => layer2_read x0 x1 x2 x3 x4 x5 x6 r k,
    funext fun k => layer1_read x0 x1 x2 x3 x4 r k]
  rfl

end Cert.RefSpec

end
-- ==== Proof.RefRun.lean ====
/- The reference program's run, and its result read as the composition of its operations' stages.

   The reference is a straight line of host operations, so every execution runs them in order: each buffer ends
   holding the fold of the operations over the launch memory, and no operation writes an argument. The fold at
   the result buffer is the last stage `val_main_v55` of the argument arrays: each operation's result is its pure
   function of the buffers it reads, and a buffer no later operation writes keeps what its producer left. -/
import proofs.«160156_j76192719831691_2_alg».proof.Proof.ReferenceReadP
import Idealize.ShloMosaic.Lib.StableHlo.Run

noncomputable section

namespace Cert.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Joining two pieces of equal contents gives equal results: the rule by which the fold is read inside a
    concatenation's pieces. -/
theorem concatenate_pair_congr {α : Type} {t s₁ s₂ : Shape} (a : Fin t.rank) {x₁ x₁' : s₁.Idx → α}
    {x₂ x₂' : s₂.Idx → α} (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

attribute [local congr] concatenate_pair_congr

set_option maxRecDepth 8192 in
set_option maxHeartbeats 8000000 in
/-- THE FOLD READ: over any contents `F` of the buffers, the operations' fold at the result buffer is the last
    stage of the argument arrays. -/
theorem fold_result (F : Valuation τ sig (Elt Ideal)) :
    after ops F (Proc.devRef .tc main_v55)
      = val_main_v55 (F := Ideal) (F (Proc.devRef .tc main_arg0)) (F (Proc.devRef .tc main_arg1)) (F (Proc.devRef .tc main_arg2)) (F (Proc.devRef .tc main_arg3)) (F (Proc.devRef .tc main_arg4)) (F (Proc.devRef .tc main_arg5)) (F (Proc.devRef .tc main_arg6)) (F (Proc.devRef .tc main_arg7)) (F (Proc.devRef .tc main_arg8)) (F (Proc.devRef .tc main_arg9)) (F (Proc.devRef .tc main_arg10)) (F (Proc.devRef .tc main_arg11)) (F (Proc.devRef .tc main_arg12)) (F (Proc.devRef .tc main_arg13)) (F (Proc.devRef .tc main_arg14)) (F (Proc.devRef .tc main_arg15)) (F (Proc.devRef .tc main_arg16)) (F (Proc.devRef .tc main_arg17)) (F (Proc.devRef .tc main_arg18)) := by
  after_results_simp
  simp only [val_main_cst, val_main_v0, val_main_v1, val_main_v2, val_main_v3, val_main_v4, val_main_v5, val_main_v6, val_main_v7, val_main_v8, val_main_call0_cst, val_main_call0_v0, val_main_v9, val_main_v10, val_main_v11, val_main_v12, val_main_v13, val_main_v14, val_main_v15, val_main_call1_cst, val_main_call1_v0, val_main_v16, val_main_v17, val_main_v18, val_main_v19, val_main_v20, val_main_v21, val_main_v22, val_main_call2_cst, val_main_call2_v0, val_main_v23, val_main_v24, val_main_v25, val_main_v26, val_main_v27, val_main_v28, val_main_v29, val_main_call3_cst, val_main_call3_v0, val_main_v30, val_main_v31, val_main_v32, val_main_v33, val_main_v34, val_main_v35, val_main_v36, val_main_call4_cst, val_main_call4_v0, val_main_v37, val_main_v38, val_main_v39, val_main_v40, val_main_v41, val_main_v42, val_main_v43, val_main_call5_cst, val_main_call5_v0, val_main_v44, val_main_v45, val_main_v46, val_main_v47, val_main_v48, val_main_v49, val_main_call6_cst, val_main_call6_v0, val_main_v50, val_main_v51, val_main_v52, val_main_v53, val_main_v54, val_main_v55]

set_option maxRecDepth 8192 in
set_option maxHeartbeats 8000000 in
/-- THE RUN: every weakly fair execution of the reference terminates with the result buffer at the operations' fold
    over the launch memory and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = after ops (fun b => m (c, b)) (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v55,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)

end Cert.RefRun

end
-- ==== Proof.Bridge.lean ====
/- The two programs' results are one function of the arguments.

   Both are the joined network (SageSpec), node by node, of the node's feature row, of the argument weights and
   of the node's aggregated edge value — and the aggregated values are, in both programs, the same scatter-add of
   the edge features into zeros at the edges' destination nodes. -/
import proofs.«160156_j76192719831691_2_alg».proof.Proof.KernelRun
import proofs.«160156_j76192719831691_2_alg».proof.Proof.RefIsSpec
import proofs.«160156_j76192719831691_2_alg».proof.Proof.RefRun

noncomputable section

namespace Cert.Bridge

open Idealize.ShloMosaic Idealize.ShloMosaic.TcCoe Idealize.SL.Sem Idealize.ShloMosaic.ValueIdx Cert.SageSpec

/-- The reference's result stage, applied to the kernel's argument arrays, is the kernel's result. -/
theorem ref_eq_kernel (m : (ℓ : Loc Cert.KernelIdeal.nD Cert.KernelIdeal.τ Cert.KernelIdeal.sig) → Buf (Elt Ideal) ℓ)
    (c : Dev Cert.KernelIdeal.nD) :
    Cert.ReferenceIdeal.ReadP.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18))
      = Cert.KernelValue.result m c := by
  funext i
  obtain ⟨r, u, rfl⟩ : ∃ (r : Fin 100000) (u : Fin 1), i = ix2 r u := ⟨i 0, i 1, eq_ix2 i⟩
  obtain rfl : u = 0 := Subsingleton.elim u 0
  rw [Cert.RefSpec.ref_is_spec]
  unfold Cert.KernelValue.result
  rw [Cert.KernelHost.aggr_read m c]
  rfl

/-- The reference's fold at its result buffer, over a launch memory `m'`, is its last stage of that memory's
    argument arrays. -/
theorem ref_fold_eq (m' : (ℓ : Loc Cert.ReferenceIdeal.nD Cert.ReferenceIdeal.τ Cert.ReferenceIdeal.sig) → Buf (Elt Ideal) ℓ)
    (c : Dev Cert.ReferenceIdeal.nD) :
    StableHlo.after Cert.ReferenceIdeal.ValueP.ops (fun b => m' (c, b)) (Proc.devRef .tc Cert.ReferenceIdeal.main_v55)
      = Cert.ReferenceIdeal.ReadP.val_main_v55 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) :=
  Cert.RefRun.fold_result (fun b => m' (c, b))

end Cert.Bridge

end
-- ==== Proof.lean ====
/- The certificate: a fused eight-layer graph-network kernel against its plain reference.

   The kernel treats the 100000 nodes in 20 blocks of 5000 rows; every row is independent. Each of the first six
   layers multiplies the row by the first columns of the layer's matrix and adds the node's aggregated edge value
   times the matrix's last column, where the reference multiplies the row JOINED with that value by the whole
   matrix: the same finite sum with its last term split off (Proof/SageSpec.lean), equal over the extended reals
   with no finiteness needed. The last layer is padded to 128 lanes of which the kernel's wrapper keeps lane 0
   (Proof/PadScatter.lean, Proof/KernelHost.lean). The aggregated edge values are the same scatter-add in both
   programs and are never opened. Proof/KernelPayload.lean reads the kernel body at one entry,
   Proof/KernelBlocks.lean the output array from its blocks, Proof/KernelRun.lean the kernel's run,
   Proof/RefRun.lean the reference's run, Proof/RefIsSpec.lean its stages, Proof/Bridge.lean joins the two. The three frames: the two
   kernels' are the generated ones; the reference's is its run with the result dropped. The ideal
   pass rewrote nothing, so the kernel's idealization is its own text. -/
import proofs.«160156_j76192719831691_2_alg».proof.Defs
import proofs.«160156_j76192719831691_2_alg».proof.Proof.Gen.Kernel
import proofs.«160156_j76192719831691_2_alg».proof.Proof.Gen.Kernel.Skeleton
import proofs.«160156_j76192719831691_2_alg».proof.Proof.KernelLaunchP
import proofs.«160156_j76192719831691_2_alg».proof.Proof.Gen.Kernel.Points
import proofs.«160156_j76192719831691_2_alg».proof.Proof.KernelFrameP
import proofs.«160156_j76192719831691_2_alg».proof.Proof.Gen.KernelIdeal
import proofs.«160156_j76192719831691_2_alg».proof.Proof.Gen.KernelIdeal.Skeleton
import proofs.«160156_j76192719831691_2_alg».proof.Proof.KernelIdealLaunchP
import proofs.«160156_j76192719831691_2_alg».proof.Proof.Gen.KernelIdeal.Points
import proofs.«160156_j76192719831691_2_alg».proof.Proof.KernelIdealFrameP
import proofs.«160156_j76192719831691_2_alg».proof.Proof.Gen.ReferenceIdeal
import proofs.«160156_j76192719831691_2_alg».proof.Proof.ReferenceRunP
import proofs.«160156_j76192719831691_2_alg».proof.Proof.ReferenceReadP
import proofs.«160156_j76192719831691_2_alg».proof.Proof.Gen.Pre_finite_inputs
import proofs.«160156_j76192719831691_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.RefRun.run m ρ),
  trivial,
  fun m ρ m' ρ' _ hagree => ⟨fun c => Cert.KernelValue.result m c, Cert.KernelValue.run m ρ,
    (θ_run Cert.ReferenceIdeal.defs _ _).mono (fun _ h c => ⟨by
        rw [(h c).1, Cert.Bridge.ref_fold_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
        exact Cert.Bridge.ref_eq_kernel m c, (h c).2⟩)
      (Cert.RefRun.run m' ρ')⟩⟩

end Cert.Proof

end
